-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S5000x1 : Shape := ⟨2, ![5000, 1]⟩
abbrev S1x128 : Shape := ⟨2, ![1, 128]⟩
abbrev S512x128 : Shape := ⟨2, ![512, 128]⟩
abbrev S512x1 : Shape := ⟨2, ![512, 1]⟩
abbrev S1x1 : Shape := ⟨2, ![1, 1]⟩

abbrev nBuf : Space → Nat
  | .hbm => 106
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S1600000x1, .f32⟩
  | .hbm, ⟨45, _⟩ => ⟨S100000, .f32⟩
  | .hbm, ⟨46, _⟩ => ⟨S100000x1, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x128, .f32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S1600000x128, .f32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S100000x128, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x128, .f32⟩
  | .hbm, ⟨88, _⟩ => ⟨S1600000x128, .f32⟩
  | .hbm, ⟨89, _⟩ => ⟨S1600000x128, .f32⟩
  | .hbm, ⟨90, _⟩ => ⟨S_, .f32⟩
  | .hbm, ⟨91, _⟩ => ⟨S100000x128, .f32⟩
  | .hbm, ⟨92, _⟩ => ⟨S1600000x1, .i32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S512x128, .f32⟩
  | .hbm, ⟨97, _⟩ => ⟨S100000x1, .i32⟩
  | .hbm, ⟨98, _⟩ => ⟨S512x128, .f32⟩
  | .hbm, ⟨99, _⟩ => ⟨S_, .f32⟩
  | .hbm, ⟨100, _⟩ => ⟨S100000x1, .f32⟩
  | .hbm, ⟨101, _⟩ => ⟨S_, .f32⟩
  | .hbm, ⟨102, _⟩ => ⟨S512x1, .f32⟩
  | .hbm, ⟨103, _⟩ => ⟨S100000x1, .i32⟩
  | .hbm, ⟨104, _⟩ => ⟨S512x1, .f32⟩
  | .hbm, ⟨105, _⟩ => ⟨S512x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S128x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S128x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | .local _ .vmem, ⟨30, _⟩ => ⟨S512x128, .f32⟩
  | .local _ .vmem, ⟨31, _⟩ => ⟨S512x1, .f32⟩
  | .local _ .vmem, ⟨32, _⟩ => ⟨S128x1, .f32⟩
  | .local _ .vmem, ⟨33, _⟩ => ⟨S1, .f32⟩
  | .local _ .vmem, ⟨34, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_15 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem1_0 : DmaSem sig := 31
abbrev cc3_sem2_0 : DmaSem sig := 32
abbrev cc3_sem3_0 : DmaSem sig := 33
abbrev cc3_sem4_0 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S512x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S512x128 : S_.BroadcastsInDim S512x128 (![] : Fin 0 → Fin S512x128.rank)
  bcast_S_S100000x1 : S_.BroadcastsInDim S100000x1 (![] : Fin 0 → Fin S100000x1.rank)
  bcast_S_S512x1 : S_.BroadcastsInDim S512x1 (![] : Fin 0 → Fin S512x1.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  scatter_S512x1_S100000x1_S100000x1_1_0_0_1_wf : ScatterDims.WF S512x1 S100000x1 S100000x1 [1] [0] [0] 1
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x1.size a ≤ S512x1.size a
  hwx3_1 : ∀ i : grid3.Coords, EltTy.bits .f32 = 32 ∨ (Rect.block (s := S512x1) S512x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x1.size a ≤ S128x1.size a
  hwx3_2 : ∀ i : grid3.Coords, EltTy.bits .f32 = 32 ∨ (Rect.block (s := S128x1) S128x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1.size a ≤ S1.size a
  hwx3_3 : ∀ i : grid3.Coords, EltTy.bits .f32 = 32 ∨ (Rect.block (s := S1) S1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x1.size a ≤ S512x1.size a
  hwx3_4 : ∀ i : grid3.Coords, EltTy.bits .f32 = 32 ∨ (Rect.block (s := S512x1) S512x1.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_v40) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v53) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v66) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v70) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v74) S512x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S512x1.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S512x128 : Shape := ⟨2, ![512, 128]⟩
abbrev S512x1 : Shape := ⟨2, ![512, 1]⟩
abbrev S1x1 : Shape := ⟨2, ![1, 1]⟩

abbrev nBuf : Space → Nat
  | .hbm => 141
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x1, .f32⟩
  | 10 => ⟨S1, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S1600000x1, .f32⟩
  | 45 => ⟨S100000, .f32⟩
  | 46 => ⟨S100000x1, .f32⟩
  | 47 => ⟨S100000x128, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x128, .f32⟩
  | 82 => ⟨S1600000x128, .f32⟩
  | 83 => ⟨S1600000x128, .f32⟩
  | 84 => ⟨S_, .f32⟩
  | 85 => ⟨S100000x128, .f32⟩
  | 86 => ⟨S1600000x1, .i32⟩
  | 87 => ⟨S100000x128, .f32⟩
  | 88 => ⟨S100000x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x128, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x128, .f32⟩
  | 107 => ⟨S1600000x128, .f32⟩
  | 108 => ⟨S1600000x128, .f32⟩
  | 109 => ⟨S_, .f32⟩
  | 110 => ⟨S100000x128, .f32⟩
  | 111 => ⟨S1600000x1, .i32⟩
  | 112 => ⟨S100000x128, .f32⟩
  | 113 => ⟨S100000x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S_, .f32⟩
  | 123 => ⟨S512x128, .f32⟩
  | 124 => ⟨S100000x1, .i32⟩
  | 125 => ⟨S512x128, .f32⟩
  | 126 => ⟨S_, .f32⟩
  | 127 => ⟨S100000x1, .f32⟩
  | _ => ⟨S100000x128, .f32⟩

abbrev hbmTy0_1 (i : Nat) : BufTy := match i % 128 with
  | 0 => ⟨S_, .f32⟩
  | 1 => ⟨S512x1, .f32⟩
  | 2 => ⟨S100000x1, .i32⟩
  | 3 => ⟨S512x1, .f32⟩
  | 4 => ⟨S_, .f32⟩
  | 5 => ⟨S512x1, .f32⟩
  | 6 => ⟨S512x1, .f32⟩
  | 7 => ⟨S512x128, .f32⟩
  | 8 => ⟨S512x128, .f32⟩
  | 9 => ⟨S512x1, .f32⟩
  | 10 => ⟨S1x1, .f32⟩
  | 11 => ⟨S512x1, .f32⟩
  | 12 => ⟨S512x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call1_cst : Ref sig .tc := ⟨.hbm, 94, rfl⟩
abbrev main_call1_v0 : Ref sig .tc := ⟨.hbm, 95, rfl⟩
abbrev main_v68 : Ref sig .tc := ⟨.hbm, 96, rfl⟩
abbrev main_v69 : Ref sig .tc := ⟨.hbm, 97, rfl⟩
abbrev main_c_11 : Ref sig .tc := ⟨.hbm, 98, rfl⟩
abbrev main_v70 : Ref sig .tc := ⟨.hbm, 99, rfl⟩
abbrev main_v71 : Ref sig .tc := ⟨.hbm, 100, rfl⟩
abbrev main_c_12 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_13 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_call2_cst : Ref sig .tc := ⟨.hbm, 119, rfl⟩
abbrev main_call2_v0 : Ref sig .tc := ⟨.hbm, 120, rfl⟩
abbrev main_v88 : Ref sig .tc := ⟨.hbm, 121, rfl⟩
abbrev main_cst_14 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_15 : Ref sig .tc := ⟨.hbm, 126, rfl⟩
abbrev main_v92 : Ref sig .tc := ⟨.hbm, 127, rfl⟩
abbrev main_cst_16 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_17 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S_S100000x1 : S_.BroadcastsInDim S100000x1 (![] : Fin 0 → Fin S100000x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  scatter_S512x1_S100000x1_S100000x1_1_0_0_1_wf : ScatterDims.WF S512x1 S100000x1 S100000x1 [1] [0] [0] 1
  dot_S512x128_S128x1_S512x1_1_0_0_1_n_n_wf : DotDims.WF S512x128 S128x1 S512x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.Spec.lean ====
/-
  The two dense stages of the network, as functions of whole arrays over the extended reals.

  A graph-convolution layer, in the aggregate-then-transform arrangement: given the aggregated neighbour
  features S, the node features h, the per-node self-loop weight sn, a square weight matrix W and a bias row b,
  entry (p, q) of the result is  max( (sum over k of (S(p,k) + h(p,k) * sn(p)) * W(k,q)) + b(q), 0 ).

  The read-out: given per-graph feature sums, per-graph node counts, a weight column and one bias,
  entry (g, 0) of the result is  (sum over k of (sums(g,k) / max(count(g), 1)) * Wfc(k,0)) + bfc.
-/
import Idealize.ShloMosaic.PureOps.Ideal
import Idealize.ShloMosaic.Lib.ValueIdx

noncomputable section

namespace Cert.Spec

open Idealize.ShloMosaic Idealize.ShloMosaic.ValueIdx

/-- Node features: 100000 nodes, 128 features. -/
abbrev SNode : Shape := ⟨2, ![100000, 128]⟩
/-- One number per node, as a column. -/
abbrev SNodeCol : Shape := ⟨2, ![100000, 1]⟩
/-- A square weight matrix. -/
abbrev SWeight : Shape := ⟨2, ![128, 128]⟩
/-- A bias row. -/
abbrev SBias : Shape := ⟨1, ![128]⟩
/-- Per-graph feature sums: 512 graphs. -/
abbrev SGraph : Shape := ⟨2, ![512, 128]⟩
/-- One number per graph, as a column. -/
abbrev SGraphCol : Shape := ⟨2, ![512, 1]⟩
/-- The read-out weight column. -/
abbrev SOutW : Shape := ⟨2, ![128, 1]⟩
/-- The read-out bias. -/
abbrev SOutB : Shape := ⟨1, ![1]⟩

/-- Every entry of an array of extended reals is a real number. -/
def RealValued {ι : Type} (x : ι → EReal) : Prop := ∀ i, ∃ r : ℝ, x i = (r : EReal)

/-- Entry (p, q) of a layer in the aggregate-then-transform arrangement. -/
def layerAt (S h : SNode.Idx → EReal) (sn : SNodeCol.Idx → EReal) (W : SWeight.Idx → EReal) (b : SBias.Idx → EReal)
    (p : Fin 100000) (q : Fin 128) : EReal :=
  max ((∑ k : Fin 128, (S (ix2 p k) + h (ix2 p k) * sn (ix2 p 0)) * W (ix2 k q)) + b (ix1 q)) 0

/-- The layer as one function of whole arrays. -/
def layerK (S h : SNode.Idx → EReal) (sn : SNodeCol.Idx → EReal) (W : SWeight.Idx → EReal) (b : SBias.Idx → EReal) :
    SNode.Idx → EReal :=
  fun i => layerAt S h sn W b (i 0) (i 1)

theorem layerK_ix2 (S h : SNode.Idx → EReal) (sn : SNodeCol.Idx → EReal) (W : SWeight.Idx → EReal) (b : SBias.Idx → EReal)
    (p : Fin 100000) (q : Fin 128) : layerK S h sn W b (ix2 p q) = layerAt S h sn W b p q := rfl

/-- Entry (g, 0) of the read-out. -/
def poolAt (sums : SGraph.Idx → EReal) (cnt : SGraphCol.Idx → EReal) (Wfc : SOutW.Idx → EReal) (bfc : SOutB.Idx → EReal)
    (g : Fin 512) : EReal :=
  (∑ k : Fin 128, Ideal.div (sums (ix2 g k)) (max (cnt (ix2 g 0)) 1) * Wfc (ix2 k 0)) + bfc (ix1 0)

/-- The read-out as one function of whole arrays. -/
def poolK (sums : SGraph.Idx → EReal) (cnt : SGraphCol.Idx → EReal) (Wfc : SOutW.Idx → EReal) (bfc : SOutB.Idx → EReal) :
    SGraphCol.Idx → EReal :=
  fun i => poolAt sums cnt Wfc bfc (i 0)

theorem poolK_ix2 (sums : SGraph.Idx → EReal) (cnt : SGraphCol.Idx → EReal) (Wfc : SOutW.Idx → EReal) (bfc : SOutB.Idx → EReal)
    (g : Fin 512) (r : Fin 1) : poolK sums cnt Wfc bfc (ix2 g r) = poolAt sums cnt Wfc bfc g := rfl

end Cert.Spec

end
-- ==== Proof.KSpec.lean ====
/-
  The kernel program's result as one function of its eleven argument arrays.

  Around its four dense stages the program prepares, with whole-array operations, everything that depends on the
  graph: the source and destination row of the edge list (a negative source index is wrapped once by the number
  of nodes before it is used to gather), the degree of every node counted from the destination row plus one for
  the self-loop, its inverse square root dis, the per-edge weight dis(src) * dis(dst) as a column, the per-node
  self-loop weight dis * dis as a column; per layer, the aggregate
      agg h = scatter-add over the edges, into row dst, of  h(row src) * weight ;
  and at the end the per-graph sums of the last layer's rows and the per-graph node counts.
  The dense stages themselves are Spec.layerK (three times) and Spec.poolK.
-/
import proofs.«179693_j27702539059471_2_alg».proof.KernelIdeal
import proofs.«179693_j27702539059471_2_alg».proof.Proof.Gen.KernelIdeal
import proofs.«179693_j27702539059471_2_alg».proof.Proof.Spec

noncomputable section

namespace Cert.KernelIdeal.KSpec

open Cert.KernelIdeal Cert.KernelIdeal.Gen Idealize.ShloMosaic

variable {F : FTy → Type} [FloatOps F]

/-- The source row of the edge list. -/
def srcRow (x1 : (⟨S2x1600000, .i32⟩ : BufTy).Contents (Elt F)) : (⟨S1600000, .i32⟩ : BufTy).Contents (Elt F) :=
  shapeCast _ (extractStridedSlice S1x1600000 ![0, 0] x1 slices_S2x1600000_S1x1600000_0_0) shapeCasts_S1x1600000_S1600000

/-- The destination row of the edge list. -/
def dstRow (x1 : (⟨S2x1600000, .i32⟩ : BufTy).Contents (Elt F)) : (⟨S1600000, .i32⟩ : BufTy).Contents (Elt F) :=
  shapeCast _ (extractStridedSlice S1x1600000 ![1, 0] x1 slices_S2x1600000_S1x1600000_1_0) shapeCasts_S1x1600000_S1600000

/-- A negative index is moved up by the number of nodes; any other index is kept. -/
def wrapIdx (v : (⟨S1600000, .i32⟩ : BufTy).Contents (Elt F)) : (⟨S1600000, .i32⟩ : BufTy).Contents (Elt F) :=
  select (cmpi .slt v (broadcastInDim S1600000 ![] bcast_S_S1600000 (constantI S_ 32 0#32)))
    (addi v (broadcastInDim S1600000 ![] bcast_S_S1600000 (constantI S_ 32 100000#32))) v

/-- A row of indices as a one-column array of start indices. -/
def col (v : (⟨S1600000, .i32⟩ : BufTy).Contents (Elt F)) : (⟨S1600000x1, .i32⟩ : BufTy).Contents (Elt F) :=
  broadcastInDim S1600000x1 ![0] bcast_S1600000_S1600000x1_0 v

/-- Degree with the self-loop: the number of edges arriving at a node, plus one. -/
def deg (x1 : (⟨S2x1600000, .i32⟩ : BufTy).Contents (Elt F)) : (⟨S100000, .f32⟩ : BufTy).Contents (Elt F) :=
  addf (Host.scatterAdd scatter_S100000_S1600000x1_S1600000_n_0_0_1
      (broadcastInDim S100000 ![] bcast_S_S100000 (constant S_ .f32 0x00000000#32)) (col (dstRow x1))
      (broadcastInDim S1600000 ![] bcast_S_S1600000 (constant S_ .f32 0x3F800000#32)))
    (broadcastInDim S100000 ![] bcast_S_S100000 (constant S_ .f32 0x3F800000#32))

/-- The inverse square root of the degree. -/
def dis (x1 : (⟨S2x1600000, .i32⟩ : BufTy).Contents (Elt F)) : (⟨S100000, .f32⟩ : BufTy).Contents (Elt F) :=
  Host.rsqrt (deg x1)

/-- The per-edge weight dis(src) * dis(dst), as a column. -/
def enorm (x1 : (⟨S2x1600000, .i32⟩ : BufTy).Contents (Elt F)) : (⟨S1600000x1, .f32⟩ : BufTy).Contents (Elt F) :=
  broadcastInDim S1600000x1 ![0] bcast_S1600000_S1600000x1_0
    (mulf (Host.gather gather_S100000_S1600000x1_S1600000_n_0_n_n_0_1_1 (dis x1) (col (wrapIdx (srcRow x1))))
      (Host.gather gather_S100000_S1600000x1_S1600000_n_0_n_n_0_1_1 (dis x1) (col (wrapIdx (dstRow x1)))))

/-- The per-node self-loop weight dis * dis, as a column. -/
def snorm (x1 : (⟨S2x1600000, .i32⟩ : BufTy).Contents (Elt F)) : (⟨S100000x1, .f32⟩ : BufTy).Contents (Elt F) :=
  broadcastInDim S100000x1 ![0] bcast_S100000_S100000x1_0 (mulf (dis x1) (dis x1))

/-- The aggregate of a feature array over the edges: row dst receives the sum of h(row src) * weight. -/
def agg (h : (⟨S100000x128, .f32⟩ : BufTy).Contents (Elt F)) (x1 : (⟨S2x1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (col (dstRow x1))
    (mulf (Host.gather gather_S100000x128_S1600000x1_S1600000x128_1_0_n_n_0_1_1128 h (col (wrapIdx (srcRow x1))))
      (broadcastInDim S1600000x128 ![0, 1] bcast_S1600000x1_S1600000x128_0_1 (enorm x1)))

/-- Per-graph sums of the rows of a feature array. -/
def sums (h : (⟨S100000x128, .f32⟩ : BufTy).Contents (Elt F)) (x2 : (⟨S100000, .i32⟩ : BufTy).Contents (Elt F)) :
    (⟨S512x128, .f32⟩ : BufTy).Contents (Elt F) :=
  Host.scatterAdd scatter_S512x128_S100000x1_S100000x128_1_0_0_1
    (broadcastInDim S512x128 ![] bcast_S_S512x128 (constant S_ .f32 0x00000000#32))
    (broadcastInDim S100000x1 ![0] bcast_S100000_S100000x1_0 x2) h

/-- Per-graph node counts, as a column. -/
def counts (x2 : (⟨S100000, .i32⟩ : BufTy).Contents (Elt F)) : (⟨S512x1, .f32⟩ : BufTy).Contents (Elt F) :=
  Host.scatterAdd scatter_S512x1_S100000x1_S100000x1_1_0_0_1
    (broadcastInDim S512x1 ![] bcast_S_S512x1 (constant S_ .f32 0x00000000#32))
    (broadcastInDim S100000x1 ![0] bcast_S100000_S100000x1_0 x2)
    (broadcastInDim S100000x1 ![] bcast_S_S100000x1 (constant S_ .f32 0x3F800000#32))

/-- One layer of the kernel program at the exact instance: aggregate, then the dense stage. -/
def layer (h : S100000x128.Idx → EReal) (x1 : (⟨S2x1600000, .i32⟩ : BufTy).Contents (Elt Ideal))
    (W : S128x128.Idx → EReal) (b : S128.Idx → EReal) : S100000x128.Idx → EReal :=
  Cert.Spec.layerK (agg (F := Ideal) h x1) h (snorm (F := Ideal) x1) W b

/-- The kernel program's result. -/
def out (x0 : S100000x128.Idx → EReal) (x1 : (⟨S2x1600000, .i32⟩ : BufTy).Contents (Elt Ideal))
    (x2 : (⟨S100000, .i32⟩ : BufTy).Contents (Elt Ideal)) (x3 : S128x128.Idx → EReal) (x4 : S128.Idx → EReal)
    (x5 : S128x128.Idx → EReal) (x6 : S128.Idx → EReal) (x7 : S128x128.Idx → EReal) (x8 : S128.Idx → EReal)
    (x9 : S128x1.Idx → EReal) (x10 : S1.Idx → EReal) : S512x1.Idx → EReal :=
  Cert.Spec.poolK (sums (F := Ideal) (layer (layer (layer x0 x1 x3 x4) x1 x5 x6) x1 x7 x8) x2) (counts (F := Ideal) x2) x9 x10

end Cert.KernelIdeal.KSpec

end
-- ==== Proof.KStretch.lean ====
/-
  What each stretch of whole-array operations between the dense stages leaves in the buffers the later steps read,
  from ANY contents at the stretch's entry: each result is read as the composition of the operations that produce it,
  which is one of KSpec's functions applied to the entry contents of the buffers the stretch reads.
-/
import proofs.«179693_j27702539059471_2_alg».proof.Proof.Gen.KernelIdeal.Frame
import proofs.«179693_j27702539059471_2_alg».proof.Proof.Spec
import proofs.«179693_j27702539059471_2_alg».proof.Proof.KSpec

noncomputable section

namespace Cert.KernelIdeal.KStretch

open Cert.KernelIdeal Cert.KernelIdeal.Gen Idealize.ShloMosaic Idealize.ShloMosaic.TcCoe Idealize.SL.Sem

section Pieces

variable {F : FTy → Type} [FloatOps F]

/-- The aggregate of a feature array from the prepared pieces: the source row (wrapped inside), the destination row
    and the column of per-edge weights. -/
def aggOf (h : (⟨S100000x128, .f32⟩ : BufTy).Contents (Elt F)) (src dst : (⟨S1600000, .i32⟩ : BufTy).Contents (Elt F)) (en : (⟨S1600000x1, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (KSpec.col dst)
    (mulf (Host.gather gather_S100000x128_S1600000x1_S1600000x128_1_0_n_n_0_1_1128 h (KSpec.col (KSpec.wrapIdx src)))
      (broadcastInDim S1600000x128 ![0, 1] bcast_S1600000x1_S1600000x128_0_1 en))

/-- The aggregate over the edge list is the aggregate from the pieces prepared from that edge list. -/
theorem agg_eq (h : (⟨S100000x128, .f32⟩ : BufTy).Contents (Elt F)) (x1 : (⟨S2x1600000, .i32⟩ : BufTy).Contents (Elt F)) :
    KSpec.agg h x1 = aggOf h (KSpec.srcRow x1) (KSpec.dstRow x1) (KSpec.enorm x1) := rfl

end Pieces

variable (V : Valuation τ sig (Elt Ideal))

/-! ## The first stretch, from any entry contents: everything is a function of the edge list and the features -/

theorem host0_v1 : (StableHlo.after hostOps0 V (Proc.devRef .tc main_v1) : (⟨S1600000, .i32⟩ : BufTy).Contents (Elt Ideal)) = KSpec.srcRow (F := Ideal) (V (Proc.devRef .tc main_arg1)) := by
  after_results_simp
  rfl

theorem host0_v3 : (StableHlo.after hostOps0 V (Proc.devRef .tc main_v3) : (⟨S1600000, .i32⟩ : BufTy).Contents (Elt Ideal)) = KSpec.dstRow (F := Ideal) (V (Proc.devRef .tc main_arg1)) := by
  after_results_simp
  rfl

theorem host0_v26 : (StableHlo.after hostOps0 V (Proc.devRef .tc main_v26) : (⟨S1600000x1, .f32⟩ : BufTy).Contents (Elt Ideal)) = KSpec.enorm (F := Ideal) (V (Proc.devRef .tc main_arg1)) := by
  after_results_simp
  rfl

theorem host0_v28 : (StableHlo.after hostOps0 V (Proc.devRef .tc main_v28) : (⟨S100000x1, .f32⟩ : BufTy).Contents (Elt Ideal)) = KSpec.snorm (F := Ideal) (V (Proc.devRef .tc main_arg1)) := by
  after_results_simp
  rfl

theorem host0_v40 : (StableHlo.after hostOps0 V (Proc.devRef .tc main_v40) : (⟨S100000x128, .f32⟩ : BufTy).Contents (Elt Ideal))
    = KSpec.agg (F := Ideal) (V (Proc.devRef .tc main_arg0)) (V (Proc.devRef .tc main_arg1)) := by
  after_results_simp
  rfl

/-! ## The second and third stretch: the aggregate of the previous layer's output, from the pieces the first stretch left -/

theorem host1_v53 : (StableHlo.after hostOps1 V (Proc.devRef .tc main_v53) : (⟨S100000x128, .f32⟩ : BufTy).Contents (Elt Ideal))
    = aggOf (F := Ideal) (V (Proc.devRef .tc main_v41)) (V (Proc.devRef .tc main_v1)) (V (Proc.devRef .tc main_v3)) (V (Proc.devRef .tc main_v26)) := by
  after_results_simp
  rfl

theorem host2_v66 : (StableHlo.after hostOps2 V (Proc.devRef .tc main_v66) : (⟨S100000x128, .f32⟩ : BufTy).Contents (Elt Ideal))
    = aggOf (F := Ideal) (V (Proc.devRef .tc main_v54)) (V (Proc.devRef .tc main_v1)) (V (Proc.devRef .tc main_v3)) (V (Proc.devRef .tc main_v26)) := by
  after_results_simp
  rfl

/-! ## The last stretch: per-graph sums and counts -/

theorem host3_v70 : (StableHlo.after hostOps3 V (Proc.devRef .tc main_v70) : (⟨S512x128, .f32⟩ : BufTy).Contents (Elt Ideal))
    = KSpec.sums (F := Ideal) (V (Proc.devRef .tc main_v67)) (V (Proc.devRef .tc main_arg2)) := by
  after_results_simp
  rfl

theorem host3_v74 : (StableHlo.after hostOps3 V (Proc.devRef .tc main_v74) : (⟨S512x1, .f32⟩ : BufTy).Contents (Elt Ideal)) = KSpec.counts (F := Ideal) (V (Proc.devRef .tc main_arg2)) := by
  after_results_simp
  rfl

end Cert.KernelIdeal.KStretch

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibColumnLayout.lean ====
/-
  The two layout steps a per-row statistic (a row sum, mean or maximum kept as a column) goes through before it meets
  the rows again, read at an index, for any element type: a vector of per-row numbers [a] recast as a column [a, 1]
  (`Cert.Lib.shapeCast_a_a1_apply`: the column at (i, ·) is the vector at i), and the column spread over the b lanes
  of each row, [a, 1] → [a, b] (`Cert.Lib.broadcastTo_a1_ab_apply`: the spread block at (p, c) is the column at (p, 0)).
-/
import Idealize.ShloMosaic.Lib.ValueLayout

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibUnitSpread.lean ====
/-
  A one-entry array spread over a block, read at an index, for any element type: a [1, 1] array broadcast to [a, b]
  reads its one entry everywhere (Cert.Lib.broadcastTo_11_ab_apply: a scalar kept as a [1, 1] operand of a kernel).
-/
import Idealize.ShloMosaic.Lib.ValueLayout

namespace Cert.Lib

open Idealize.ShloMosaic Idealize.ShloMosaic.ValueIdx

/-- A [1, 1] array broadcast to [a, b] reads, everywhere, its one entry. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.Lib
-- ==== Proof.LibHeadLayout.lean ====
/-
  Three readings at an index that a kernel's head meets when a matrix product with a one-column matrix is written as a
  broadcast multiply and a sum over the lanes.

  * The sum over the lanes of a [a, b] block, started from zero, read at row p, is the sum over k of the block's entries
    (p, k): over the extended reals a reduction from the neutral element is the plain finite sum.
  * A one-column matrix [a, 1] recast as a row [1, a] reads, at (·, q), the column's entry (q, 0): the recast keeps the
    row-major order, and both shapes list the same a numbers in it.
  * A one-entry vector recast as a one-entry matrix reads its entry.
-/
import Idealize.ShloMosaic.Lib.Pipeline.Value
import Idealize.ShloMosaic.Lib.ValueIdx
import Idealize.ShloMosaic.PureOps.Ideal.Laws

noncomputable section

namespace Cert.Lib

open Idealize.ShloMosaic Idealize.ShloMosaic.ValueIdx

/-- Summing the lanes of an [a, b] array from zero: at row p the result is the sum over k of the entries (p, k). -/
theorem lane_sum_zero_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = _
  refine Finset.sum_congr rfl fun k _ => congrArg src ?_
  funext c; apply Fin.ext
  fin_cases c <;> rfl

variable {α : Type}

/-- An [a, 1] column recast as a [1, a] row reads, at (u, q), the column at (q, 0). -/
theorem shapeCast_a1_1a_apply {a : ℕ} (x : (⟨2, ![a, 1]⟩ : Shape).Idx → α) (h : (⟨2, ![a, 1]⟩ : Shape).ShapeCasts ⟨2, ![1, a]⟩)
    (u : Fin 1) (q : Fin a) : shapeCast ⟨2, ![1, a]⟩ x h (ix2 u q) = x (ix2 q (0 : Fin 1)) :=
  shapeCast_apply x h _ _ (by
    have hu : u.val = 0 := by omega
    rw [Shape.rowMajor_val_two, Shape.rowMajor_val_two]
    show q.val * 1 + 0 = u.val * a + q.val
    rw [hu, Nat.zero_mul, Nat.zero_add, Nat.mul_one, Nat.add_zero])

/-- A one-entry vector recast as a [1, 1] matrix reads, everywhere, its entry. -/
theorem shapeCast_1_11_apply (x : (⟨1, ![1]⟩ : Shape).Idx → α) (h : (⟨1, ![1]⟩ : Shape).ShapeCasts ⟨2, ![1, 1]⟩)
    (u w : Fin 1) : shapeCast ⟨2, ![1, 1]⟩ x h (ix2 u w) = x (ix1 (0 : Fin 1)) :=
  shapeCast_apply x h _ _ (by
    have hu : u.val = 0 := by omega
    have hw : w.val = 0 := by omega
    rw [Shape.rowMajor_val_one, Shape.rowMajor_val_two]
    show 0 = u.val * 1 + w.val
    rw [hu, hw])

end Cert.Lib

end
-- ==== Proof.KBody.lean ====
/-
  The arithmetic of the four kernel bodies, read at one entry, over the extended reals.

  A dense-layer body takes five blocks: the aggregated neighbour features S, the node features h, the self-loop
  column sn, the weight matrix W and the bias b. Its entry (p, q) is
      max( (sum over k of (S(p,k) + h(p,k) * sn(p,0)) * W(k,q)) + b(q), 0 ):
  the narrowing of both matrix-product operands is the identity over the extended reals, the product accumulated
  into the zero block is the plain sum over the contracted coordinate, the bias vector laid out as a row and spread
  over the rows reads b(q), the self-loop column spread over the lanes reads sn(p,0), and the zero literal is 0.
  The three layer bodies differ only by one identity recast of h.

  The read-out body takes the per-graph sums, the per-graph counts, the weight column and the one-entry bias; its
  entry (g, r) is (sum over k of (sums(g,k) / max(count(g,0), 1)) * Wfc(k,r)) + bfc(0), the literal one being 1.
-/
import proofs.«179693_j27702539059471_2_alg».proof.Proof.Gen.KernelIdeal.Skeleton
import proofs.«179693_j27702539059471_2_alg».proof.Proof.Spec
import proofs.«179693_j27702539059471_2_alg».proof.Proof.LibPlainMatmul
import proofs.«179693_j27702539059471_2_alg».proof.Proof.LibColumnLayout
import proofs.«179693_j27702539059471_2_alg».proof.Proof.LibUnitSpread
import proofs.«179693_j27702539059471_2_alg».proof.Proof.LibHeadLayout
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.KBody

open Cert.KernelIdeal Cert.KernelIdeal.Gen Idealize.ShloMosaic Idealize.ShloMosaic.ValueIdx

/-- A block read from offset zero on both axes, and on the one axis of a vector. -/
theorem zero_offsets2 : (![0, 0] : Fin 2 → Nat) = fun _ => 0 := funext fun a => by fin_cases a <;> rfl
theorem zero_offsets1 : (![0] : Fin 1 → Nat) = fun _ => 0 := funext fun a => by fin_cases a <;> rfl

/-- The bit pattern of the literal one denotes the number 1. -/
theorem one_literal : Ideal.ofBits .f32 0x3F800000#32 = 1 := by
  simp [Ideal.ofBits, Ideal.ieee, -EReal.coe_mul]; norm_num

/-- The left operand of a layer's product at (p, k): the aggregated features plus the node's own features scaled
    by its self-loop weight. The recast of S to its own shape and the narrowing are identities; the column sn,
    recast to its own shape and spread over the lanes, reads its row's one entry. -/
theorem layer_lhs_apply (x0 x1 : Vec Ideal S5000x128 .f32) (x2 : Vec Ideal S5000x1 .f32) (p : Fin 5000) (k : Fin 128) :
    (truncf .bf16 (addf (shapeCast S5000x128 x0 shapeCasts_S5000x128_S5000x128)
        (mulf x1 (broadcastTo S5000x128 (shapeCast S5000x1 x2 shapeCasts_S5000x1_S5000x1) broadcasts_S5000x1_S5000x128)))
      bitsLt_bf16_f32 : FVec Ideal S5000x128 .bf16) (ix2 p k)
      = x0 (ix2 p k) + x1 (ix2 p k) * x2 (ix2 p (0 : Fin 1)) := by
  show shapeCast S5000x128 x0 shapeCasts_S5000x128_S5000x128 (ix2 p k)
      + x1 (ix2 p k) * broadcastTo S5000x128 (shapeCast S5000x1 x2 shapeCasts_S5000x1_S5000x1) broadcasts_S5000x1_S5000x128 (ix2 p k) = _
  rw [shapeCast_self, shapeCast_self]
  exact congrArg (fun z => x0 (ix2 p k) + x1 (ix2 p k) * z) (Cert.Lib.broadcastTo_a1_ab_apply x2 broadcasts_S5000x1_S5000x128 p k)

/-- The bias vector laid out as one row and spread over the 5000 rows reads, at (p, q), the vector at q. -/
theorem bias_row_apply (x4 : Vec Ideal S128 .f32) (p : Fin 5000) (q : Fin 128) :
    broadcastTo S5000x128 (shapeCast S1x128 x4 shapeCasts_S128_S1x128) broadcasts_S1x128_S5000x128 (ix2 p q) = x4 (ix1 q) :=
  (broadcastTo_1b_ab_apply (shapeCast S1x128 x4 shapeCasts_S128_S1x128) broadcasts_S1x128_S5000x128 p q).trans
    (shapeCast_a_1a_apply x4 shapeCasts_S128_S1x128 (0 : Fin 1) q)

/-- Entry (p, q) of the first layer's body. -/
theorem k0_pay1_apply (x0 x1 : Vec Ideal S5000x128 .f32) (x2 : Vec Ideal S5000x1 .f32) (x3 : Vec Ideal S128x128 .f32)
    (x4 : Vec Ideal S128 .f32) (p : Fin 5000) (q : Fin 128) :
    k0_pay1 (F := Ideal) x0 x1 x2 x3 x4 (ix2 p q)
      = max ((∑ k : Fin 128, (x0 (ix2 p k) + x1 (ix2 p k) * x2 (ix2 p (0 : Fin 1))) * x3 (ix2 k q)) + x4 (ix1 q)) 0 := by
  unfold k0_pay1
  refine congrArg₂ max (congrArg₂ (· + ·) ?_ (bias_row_apply x4 p q)) Ideal.ofBits_zero_f32
  refine (Cert.Lib.matmul_plain_zero_apply (m := 5000) (k := 128) (n := 128) none _ _ p q).trans ?_
  refine Finset.sum_congr rfl fun k _ => ?_
  exact congrArg (· * x3 (ix2 k q)) (layer_lhs_apply x0 x1 x2 p k)

/-- The same left operand in the second and third layers, where the node features too pass through an identity
    recast. -/
theorem layer_lhs_recast_apply (x0 x1 : Vec Ideal S5000x128 .f32) (x2 : Vec Ideal S5000x1 .f32) (p : Fin 5000) (k : Fin 128) :
    (truncf .bf16 (addf (shapeCast S5000x128 x0 shapeCasts_S5000x128_S5000x128)
        (mulf (shapeCast S5000x128 x1 shapeCasts_S5000x128_S5000x128)
          (broadcastTo S5000x128 (shapeCast S5000x1 x2 shapeCasts_S5000x1_S5000x1) broadcasts_S5000x1_S5000x128)))
      bitsLt_bf16_f32 : FVec Ideal S5000x128 .bf16) (ix2 p k)
      = x0 (ix2 p k) + x1 (ix2 p k) * x2 (ix2 p (0 : Fin 1)) := by
  show shapeCast S5000x128 x0 shapeCasts_S5000x128_S5000x128 (ix2 p k)
      + shapeCast S5000x128 x1 shapeCasts_S5000x128_S5000x128 (ix2 p k)
        * broadcastTo S5000x128 (shapeCast S5000x1 x2 shapeCasts_S5000x1_S5000x1) broadcasts_S5000x1_S5000x128 (ix2 p k) = _
  rw [shapeCast_self, shapeCast_self, shapeCast_self]
  exact congrArg (fun z => x0 (ix2 p k) + x1 (ix2 p k) * z) (Cert.Lib.broadcastTo_a1_ab_apply x2 broadcasts_S5000x1_S5000x128 p k)

/-- Entry (p, q) of the second layer's body. -/
theorem k1_pay1_apply (x0 x1 : Vec Ideal S5000x128 .f32) (x2 : Vec Ideal S5000x1 .f32) (x3 : Vec Ideal S128x128 .f32)
    (x4 : Vec Ideal S128 .f32) (p : Fin 5000) (q : Fin 128) :
    k1_pay1 (F := Ideal) x0 x1 x2 x3 x4 (ix2 p q)
      = max ((∑ k : Fin 128, (x0 (ix2 p k) + x1 (ix2 p k) * x2 (ix2 p (0 : Fin 1))) * x3 (ix2 k q)) + x4 (ix1 q)) 0 := by
  unfold k1_pay1
  refine congrArg₂ max (congrArg₂ (· + ·) ?_ (bias_row_apply x4 p q)) Ideal.ofBits_zero_f32
  refine (Cert.Lib.matmul_plain_zero_apply (m := 5000) (k := 128) (n := 128) none _ _ p q).trans ?_
  refine Finset.sum_congr rfl fun k _ => ?_
  exact congrArg (· * x3 (ix2 k q)) (layer_lhs_recast_apply x0 x1 x2 p k)

/-- Entry (p, q) of the third layer's body. -/
theorem k2_pay1_apply (x0 x1 : Vec Ideal S5000x128 .f32) (x2 : Vec Ideal S5000x1 .f32) (x3 : Vec Ideal S128x128 .f32)
    (x4 : Vec Ideal S128 .f32) (p : Fin 5000) (q : Fin 128) :
    k2_pay1 (F := Ideal) x0 x1 x2 x3 x4 (ix2 p q)
      = max ((∑ k : Fin 128, (x0 (ix2 p k) + x1 (ix2 p k) * x2 (ix2 p (0 : Fin 1))) * x3 (ix2 k q)) + x4 (ix1 q)) 0 := by
  unfold k2_pay1
  refine congrArg₂ max (congrArg₂ (· + ·) ?_ (bias_row_apply x4 p q)) Ideal.ofBits_zero_f32
  refine (Cert.Lib.matmul_plain_zero_apply (m := 5000) (k := 128) (n := 128) none _ _ p q).trans ?_
  refine Finset.sum_congr rfl fun k _ => ?_
  exact congrArg (· * x3 (ix2 k q)) (layer_lhs_recast_apply x0 x1 x2 p k)

/-- The left operand of the read-out's product at (g, k): the graph's feature sum divided by its node count, the
    count kept at least one. The count column, capped below by the literal one and spread over the lanes, reads its
    row's one entry. -/
theorem pool_lhs_apply (x0 : Vec Ideal S512x128 .f32) (x1 : Vec Ideal S512x1 .f32) (g : Fin 512) (k : Fin 128) :
    (truncf .bf16 (divf (shapeCast S512x128 x0 shapeCasts_S512x128_S512x128)
        (broadcastTo S512x128 (maximumf (shapeCast S512x1 x1 shapeCasts_S512x1_S512x1)
            (broadcast S512x1 (Scalar.ofBits (F := Ideal) .f32 0x3F800000#32))) broadcasts_S512x1_S512x128))
      bitsLt_bf16_f32 : FVec Ideal S512x128 .bf16) (ix2 g k)
      = Ideal.div (x0 (ix2 g k)) (max (x1 (ix2 g (0 : Fin 1))) 1) := by
  show Ideal.div (shapeCast S512x128 x0 shapeCasts_S512x128_S512x128 (ix2 g k))
      (broadcastTo S512x128 (maximumf (shapeCast S512x1 x1 shapeCasts_S512x1_S512x1)
            (broadcast S512x1 (Scalar.ofBits (F := Ideal) .f32 0x3F800000#32))) broadcasts_S512x1_S512x128 (ix2 g k)) = _
  rw [shapeCast_self, shapeCast_self]
  refine (congrArg (Ideal.div (x0 (ix2 g k))) (Cert.Lib.broadcastTo_a1_ab_apply _ broadcasts_S512x1_S512x128 g k)).trans ?_
  show Ideal.div (x0 (ix2 g k)) (max (x1 (ix2 g (0 : Fin 1))) (Ideal.ofBits .f32 0x3F800000#32)) = _
  rw [one_literal]

/-- The one-entry bias recast as a one-entry matrix and spread over the 512 rows reads its entry everywhere. -/
theorem pool_bias_apply (x3 : Vec Ideal S1 .f32) (g : Fin 512) (r : Fin 1) :
    broadcastTo S512x1 (shapeCast S1x1 x3 shapeCasts_S1_S1x1) broadcasts_S1x1_S512x1 (ix2 g r) = x3 (ix1 (0 : Fin 1)) :=
  (Cert.Lib.broadcastTo_11_ab_apply (shapeCast S1x1 x3 shapeCasts_S1_S1x1) broadcasts_S1x1_S512x1 g r).trans
    (Cert.Lib.shapeCast_1_11_apply x3 shapeCasts_S1_S1x1 (0 : Fin 1) (0 : Fin 1))

/-- Entry (g, r) of the read-out's body. -/
theorem k3_pay1_apply (x0 : Vec Ideal S512x128 .f32) (x1 : Vec Ideal S512x1 .f32) (x2 : Vec Ideal S128x1 .f32)
    (x3 : Vec Ideal S1 .f32) (g : Fin 512) (r : Fin 1) :
    k3_pay1 (F := Ideal) x0 x1 x2 x3 (ix2 g r)
      = (∑ k : Fin 128, Ideal.div (x0 (ix2 g k)) (max (x1 (ix2 g (0 : Fin 1))) 1) * x2 (ix2 k r)) + x3 (ix1 (0 : Fin 1)) := by
  unfold k3_pay1
  refine congrArg₂ (· + ·) ?_ (pool_bias_apply x3 g r)
  refine (Cert.Lib.matmul_plain_zero_apply (m := 512) (k := 128) (n := 1) none _ _ g r).trans ?_
  refine Finset.sum_congr rfl fun k _ => ?_
  exact congrArg (· * x2 (ix2 k r)) (pool_lhs_apply x0 x1 g k)

/-- A layer body's entry over blocks that are rows of whole arrays is the layer's entry over the whole arrays: row
    p of the three row blocks is row P of their arrays, the weight and bias blocks are their whole arrays. -/
theorem layer_block_entry (A0 A1 : S100000x128.Idx → EReal) (A2 : S100000x1.Idx → EReal) (A3 : S128x128.Idx → EReal)
    (A4 : S128.Idx → EReal) (x0 x1 : Vec Ideal S5000x128 .f32) (x2 : Vec Ideal S5000x1 .f32) (x3 : Vec Ideal S128x128 .f32)
    (x4 : Vec Ideal S128 .f32) (p : Fin 5000) (q : Fin 128) (P : Fin 100000)
    (h0 : ∀ k : Fin 128, x0 (ix2 p k) = A0 (ix2 P k)) (h1 : ∀ k : Fin 128, x1 (ix2 p k) = A1 (ix2 P k))
    (h2 : x2 (ix2 p (0 : Fin 1)) = A2 (ix2 P (0 : Fin 1))) (h3 : ∀ k : Fin 128, x3 (ix2 k q) = A3 (ix2 k q))
    (h4 : x4 (ix1 q) = A4 (ix1 q)) :
    max ((∑ k : Fin 128, (x0 (ix2 p k) + x1 (ix2 p k) * x2 (ix2 p (0 : Fin 1))) * x3 (ix2 k q)) + x4 (ix1 q)) 0
      = Cert.Spec.layerAt A0 A1 A2 A3 A4 P q := by
  unfold Cert.Spec.layerAt
  rw [h2, h4]
  refine congrArg (fun z => max (z + A4 (ix1 q)) 0) (Finset.sum_congr rfl fun k _ => ?_)
  rw [h0 k, h1 k, h3 k]

/-- The read-out body's entry over whole-array blocks is the read-out's entry. -/
theorem pool_block_entry (A0 : S512x128.Idx → EReal) (A1 : S512x1.Idx → EReal) (A2 : S128x1.Idx → EReal) (A3 : S1.Idx → EReal)
    (x0 : Vec Ideal S512x128 .f32) (x1 : Vec Ideal S512x1 .f32) (x2 : Vec Ideal S128x1 .f32) (x3 : Vec Ideal S1 .f32)
    (g : Fin 512) (r : Fin 1)
    (h0 : ∀ k : Fin 128, x0 (ix2 g k) = A0 (ix2 g k)) (h1 : x1 (ix2 g (0 : Fin 1)) = A1 (ix2 g (0 : Fin 1)))
    (h2 : ∀ k : Fin 128, x2 (ix2 k r) = A2 (ix2 k (0 : Fin 1))) (h3 : x3 (ix1 (0 : Fin 1)) = A3 (ix1 (0 : Fin 1))) :
    (∑ k : Fin 128, Ideal.div (x0 (ix2 g k)) (max (x1 (ix2 g (0 : Fin 1))) 1) * x2 (ix2 k r)) + x3 (ix1 (0 : Fin 1))
      = Cert.Spec.poolAt A0 A1 A2 A3 g := by
  unfold Cert.Spec.poolAt
  rw [h1, h3]
  refine congrArg (fun z => z + A3 (ix1 (0 : Fin 1))) (Finset.sum_congr rfl fun k _ => ?_)
  rw [h0 k, h2 k]

end Cert.KernelIdeal.KBody

end
-- ==== Proof.KRegion0.lean ====
/-
  Region 0: from the blocks its grid points write to the whole output array.

  The grid has 20 points; point t reads rows 5000·t … 5000·t+4999 of the aggregated features, of the node features
  and of the self-loop column, together with the whole weight matrix and the whole bias, and writes the same rows of
  the output. Entry (p, q) of the block it writes is the layer's entry (5000·t + p, q) of the whole input arrays, so
  what it writes back is block t of the layer applied to the whole arrays; row r of the output lies in the block of
  point r / 5000, so the 20 blocks cover the array, and the array after the region is that one function.
-/
import proofs.«179693_j27702539059471_2_alg».proof.Proof.Gen.KernelIdeal.Frame
import proofs.«179693_j27702539059471_2_alg».proof.Proof.Spec
import proofs.«179693_j27702539059471_2_alg».proof.Proof.KBody
import Idealize.ShloMosaic.Lib.Pipeline.Value

noncomputable section

namespace Cert.KernelIdeal.KRegion

open Cert.KernelIdeal Cert.KernelIdeal.Gen Idealize.ShloMosaic Idealize.ShloMosaic.TcCoe Idealize.SL.Sem
open Idealize.ShloMosaic.ValueIdx
open Idealize.ShloMosaic.Pipeline (Dat)

namespace R0

open Cert.KernelIdeal.KBody (zero_offsets2 zero_offsets1)

/-- The printed index maps, decided over the 20 grid points: the three row-blocked inputs and the output sit at
    block row t, block column 0; the weight matrix and the bias are their one block at every point. -/
theorem block_indices0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

section
variable (V : (c : Dev nD) → (b : Ref sig .tc) → Buf (Elt Ideal) ((c : Thread nD τ).loc b)) (c : Dev nD) (t : Fin cfg0.N)

/-- Block t of the aggregated features is rows 5000·t … 5000·t+4999 of the array. -/
theorem block_S (p : Fin 5000) (k : Fin 128) (P : Fin 100000) (hP : P.val = t.val * 5000 + p.val) :
    (iblk0 (F := Ideal) V c 0 t : Vec Ideal S5000x128 .f32) (ix2 p k) = (V c main_v40 : S100000x128.Idx → EReal) (ix2 P k) := by
  obtain ⟨e0, e1, -⟩ := block_indices0 t
  unfold iblk0
  rw [View.read_apply]
  show V c main_v40 _ = V c main_v40 _
  refine congrArg (V c main_v40) (funext fun a => Fin.ext ?_)
  match a with
  | ⟨0, _⟩ => show win0_0.index t (0 : Fin 2) * 5000 + 1 * p.val = P.val; omega
  | ⟨1, _⟩ => show win0_0.index t (1 : Fin 2) * 128 + 1 * k.val = k.val; omega

/-- Block t of the node features is the same rows of its array. -/
theorem block_h (p : Fin 5000) (k : Fin 128) (P : Fin 100000) (hP : P.val = t.val * 5000 + p.val) :
    (iblk0 (F := Ideal) V c 1 t : Vec Ideal S5000x128 .f32) (ix2 p k) = (V c main_arg0 : S100000x128.Idx → EReal) (ix2 P k) := by
  obtain ⟨-, -, e0, e1, -⟩ := block_indices0 t
  unfold iblk0
  rw [View.read_apply]
  show V c main_arg0 _ = V c main_arg0 _
  refine congrArg (V c main_arg0) (funext fun a => Fin.ext ?_)
  match a with
  | ⟨0, _⟩ => show win0_1.index t (0 : Fin 2) * 5000 + 1 * p.val = P.val; omega
  | ⟨1, _⟩ => show win0_1.index t (1 : Fin 2) * 128 + 1 * k.val = k.val; omega

/-- Block t of the self-loop column is the same rows of the column. -/
theorem block_sn (p : Fin 5000) (P : Fin 100000) (hP : P.val = t.val * 5000 + p.val) :
    (iblk0 (F := Ideal) V c 2 t : Vec Ideal S5000x1 .f32) (ix2 p (0 : Fin 1)) = (V c main_v28 : S100000x1.Idx → EReal) (ix2 P (0 : Fin 1)) := by
  obtain ⟨-, -, -, -, e0, e1, -⟩ := block_indices0 t
  unfold iblk0
  rw [View.read_apply]
  show V c main_v28 _ = V c main_v28 _
  refine congrArg (V c main_v28) (funext fun a => Fin.ext ?_)
  match a with
  | ⟨0, _⟩ => show win0_2.index t (0 : Fin 2) * 5000 + 1 * p.val = P.val; omega
  | ⟨1, _⟩ => show win0_2.index t (1 : Fin 2) * 1 + 1 * 0 = 0; omega

/-- The weight block at every point is the whole weight matrix. -/
theorem block_W (k q : Fin 128) :
    (iblk0 (F := Ideal) V c 3 t : Vec Ideal S128x128 .f32) (ix2 k q) = (V c main_arg3 : S128x128.Idx → EReal) (ix2 k q) := by
  obtain ⟨-, -, -, -, -, -, e0, e1, -⟩ := block_indices0 t
  unfold iblk0
  rw [View.read_apply]
  show V c main_arg3 _ = V c main_arg3 _
  refine congrArg (V c main_arg3) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias block at every point is the whole bias. -/
theorem block_b (q : Fin 128) :
    (iblk0 (F := Ideal) V c 4 t : Vec Ideal S128 .f32) (ix1 q) = (V c main_arg4 : S128.Idx → EReal) (ix1 q) := by
  obtain ⟨-, -, -, -, -, -, -, -, e0, -⟩ := block_indices0 t
  unfold iblk0
  rw [View.read_apply]
  show V c main_arg4 _ = V c main_arg4 _
  refine congrArg (V c main_arg4) (funext fun a => Fin.ext ?_)
  match a with
  | ⟨0, _⟩ => show win0_4.index t (0 : Fin 1) * 128 + 1 * q.val = q.val; omega

/-- What point t writes back is block t of the layer applied to the region's whole input arrays. -/
theorem flushed_eq :
    (dat0 (F := Ideal) V c).flushed 5 t = ((cfg0.win 5).blk t).view.read (Elt Ideal)
      (Cert.Spec.layerK (V c main_v40) (V c main_arg0) (V c main_v28) (V c main_arg3) (V c main_arg4)) := by
  show (cfg0.win 5).cut (grid0.coords t) ((dat0 V c).after 5 t) = _
  rw [after0_5]
  unfold out0_5
  rw [View.canon_unit_zero zero_offsets2]
  simp only [View.ld_unit_zero (S := S5000x128) zero_offsets2, View.ld_unit_zero (S := S5000x1) zero_offsets2,
    View.ld_unit_zero (S := S128x128) zero_offsets2, View.ld_unit_zero (S := S128) zero_offsets1]
  funext j
  have hj0 : (j 0).val < 5000 := (j 0).isLt
  have hj1 : (j 1).val < 128 := (j 1).isLt
  have ht : t.val < 20 := Nat.lt_of_lt_of_eq t.isLt N_0
  obtain ⟨-, -, -, -, -, -, -, -, -, e0, e1⟩ := block_indices0 t
  rw [View.read_apply]
  have hemb : ((cfg0.win 5).blk t).view.emb j
      = (ix2 (⟨t.val * 5000 + (j 0).val, by omega⟩ : Fin 100000) (⟨(j 1).val, hj1⟩ : Fin 128) : S100000x128.Idx) := by
    funext a; apply Fin.ext
    match a with
    | ⟨0, _⟩ => show win0_5.index t (0 : Fin 2) * 5000 + 1 * (j 0).val = t.val * 5000 + (j 0).val; omega
    | ⟨1, _⟩ => show win0_5.index t (1 : Fin 2) * 128 + 1 * (j 1).val = (j 1).val; omega
  refine Eq.trans ?_ (congrArg (Cert.Spec.layerK (V c main_v40) (V c main_arg0) (V c main_v28) (V c main_arg3) (V c main_arg4)) hemb).symm
  rw [Cert.Spec.layerK_ix2]
  have hin : (cfg0.win 5).xinj (grid0.coords t) j = (ix2 (⟨(j 0).val, hj0⟩ : Fin 5000) (⟨(j 1).val, hj1⟩ : Fin 128) : S5000x128.Idx) := by
    funext a; apply Fin.ext
    match a with
    | ⟨0, _⟩ => rfl
    | ⟨1, _⟩ => rfl
  refine (congrArg (k0_pay1 (F := Ideal) (iblk0 V c 0 t) (iblk0 V c 1 t) (iblk0 V c 2 t) (iblk0 V c 3 t) (iblk0 V c 4 t)) hin).trans ?_
  refine (KBody.k0_pay1_apply (iblk0 V c 0 t) (iblk0 V c 1 t) (iblk0 V c 2 t) (iblk0 V c 3 t) (iblk0 V c 4 t) ⟨(j 0).val, hj0⟩ ⟨(j 1).val, hj1⟩).trans ?_
  exact KBody.layer_block_entry _ _ _ _ _ _ _ _ _ _ _ _ _
    (fun k => block_S V c t _ k _ rfl) (fun k => block_h V c t _ k _ rfl) (block_sn V c t _ _ rfl)
    (fun k => block_W V c t k _) (block_b V c t _)

/-- Every entry of the output array lies in some point's block: row r in the block of point r / 5000. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, -, -, -, e0, e1⟩ := block_indices0 t
  have e0' : win0_5.index t (0 : Fin 2) = (i 0).val / 5000 := e0
  refine ⟨t, flush0_5 t, ?_⟩
  show i ∈ ((View.whole main_v41).slice (win0_5.rect t)).set
  rw [View.set_slice_whole, Rect.mem_set_unit]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

end

end R0

/-- After region 0 every block of its output array has been written: the whole array is the dense stage applied
    to the region's whole input arrays as the region found them. -/
theorem arr0 (V : (c : Dev nD) → (b : Ref sig .tc) → Buf (Elt Ideal) ((c : Thread nD τ).loc b)) (c : Dev nD) :
    ((dat0 (F := Ideal) V c).arrAt 5 cfg0.N : S100000x128.Idx → EReal)
      = Cert.Spec.layerK (V c main_v40) (V c main_arg0) (V c main_v28) (V c main_arg3) (V c main_arg4) :=
  (dat0 (F := Ideal) V c).arrAt_eq_of_cover 5 _ (fun t _ => R0.flushed_eq V c t) R0.covered

end Cert.KernelIdeal.KRegion

end
-- ==== Proof.KRegion1.lean ====
/-
  Region 1: from the blocks its grid points write to the whole output array.

  The grid has 20 points; point t reads rows 5000·t … 5000·t+4999 of the aggregated features, of the node features
  and of the self-loop column, together with the whole weight matrix and the whole bias, and writes the same rows of
  the output. Entry (p, q) of the block it writes is the layer's entry (5000·t + p, q) of the whole input arrays, so
  what it writes back is block t of the layer applied to the whole arrays; row r of the output lies in the block of
  point r / 5000, so the 20 blocks cover the array, and the array after the region is that one function.
-/
import proofs.«179693_j27702539059471_2_alg».proof.Proof.Gen.KernelIdeal.Frame
import proofs.«179693_j27702539059471_2_alg».proof.Proof.Spec
import proofs.«179693_j27702539059471_2_alg».proof.Proof.KBody
import Idealize.ShloMosaic.Lib.Pipeline.Value

noncomputable section

namespace Cert.KernelIdeal.KRegion

open Cert.KernelIdeal Cert.KernelIdeal.Gen Idealize.ShloMosaic Idealize.ShloMosaic.TcCoe Idealize.SL.Sem
open Idealize.ShloMosaic.ValueIdx
open Idealize.ShloMosaic.Pipeline (Dat)

namespace R1

open Cert.KernelIdeal.KBody (zero_offsets2 zero_offsets1)

/-- The printed index maps, decided over the 20 grid points: the three row-blocked inputs and the output sit at
    block row t, block column 0; the weight matrix and the bias are their one block at every point. -/
theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

section
variable (V : (c : Dev nD) → (b : Ref sig .tc) → Buf (Elt Ideal) ((c : Thread nD τ).loc b)) (c : Dev nD) (t : Fin cfg1.N)

/-- Block t of the aggregated features is rows 5000·t … 5000·t+4999 of the array. -/
theorem block_S (p : Fin 5000) (k : Fin 128) (P : Fin 100000) (hP : P.val = t.val * 5000 + p.val) :
    (iblk1 (F := Ideal) V c 0 t : Vec Ideal S5000x128 .f32) (ix2 p k) = (V c main_v53 : S100000x128.Idx → EReal) (ix2 P k) := by
  obtain ⟨e0, e1, -⟩ := block_indices1 t
  unfold iblk1
  rw [View.read_apply]
  show V c main_v53 _ = V c main_v53 _
  refine congrArg (V c main_v53) (funext fun a => Fin.ext ?_)
  match a with
  | ⟨0, _⟩ => show win1_0.index t (0 : Fin 2) * 5000 + 1 * p.val = P.val; omega
  | ⟨1, _⟩ => show win1_0.index t (1 : Fin 2) * 128 + 1 * k.val = k.val; omega

/-- Block t of the node features is the same rows of its array. -/
theorem block_h (p : Fin 5000) (k : Fin 128) (P : Fin 100000) (hP : P.val = t.val * 5000 + p.val) :
    (iblk1 (F := Ideal) V c 1 t : Vec Ideal S5000x128 .f32) (ix2 p k) = (V c main_v41 : S100000x128.Idx → EReal) (ix2 P k) := by
  obtain ⟨-, -, e0, e1, -⟩ := block_indices1 t
  unfold iblk1
  rw [View.read_apply]
  show V c main_v41 _ = V c main_v41 _
  refine congrArg (V c main_v41) (funext fun a => Fin.ext ?_)
  match a with
  | ⟨0, _⟩ => show win1_1.index t (0 : Fin 2) * 5000 + 1 * p.val = P.val; omega
  | ⟨1, _⟩ => show win1_1.index t (1 : Fin 2) * 128 + 1 * k.val = k.val; omega

/-- Block t of the self-loop column is the same rows of the column. -/
theorem block_sn (p : Fin 5000) (P : Fin 100000) (hP : P.val = t.val * 5000 + p.val) :
    (iblk1 (F := Ideal) V c 2 t : Vec Ideal S5000x1 .f32) (ix2 p (0 : Fin 1)) = (V c main_v28 : S100000x1.Idx → EReal) (ix2 P (0 : Fin 1)) := by
  obtain ⟨-, -, -, -, e0, e1, -⟩ := block_indices1 t
  unfold iblk1
  rw [View.read_apply]
  show V c main_v28 _ = V c main_v28 _
  refine congrArg (V c main_v28) (funext fun a => Fin.ext ?_)
  match a with
  | ⟨0, _⟩ => show win1_2.index t (0 : Fin 2) * 5000 + 1 * p.val = P.val; omega
  | ⟨1, _⟩ => show win1_2.index t (1 : Fin 2) * 1 + 1 * 0 = 0; omega

/-- The weight block at every point is the whole weight matrix. -/
theorem block_W (k q : Fin 128) :
    (iblk1 (F := Ideal) V c 3 t : Vec Ideal S128x128 .f32) (ix2 k q) = (V c main_arg5 : S128x128.Idx → EReal) (ix2 k q) := by
  obtain ⟨-, -, -, -, -, -, e0, e1, -⟩ := block_indices1 t
  unfold iblk1
  rw [View.read_apply]
  show V c main_arg5 _ = V c main_arg5 _
  refine congrArg (V c main_arg5) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias block at every point is the whole bias. -/
theorem block_b (q : Fin 128) :
    (iblk1 (F := Ideal) V c 4 t : Vec Ideal S128 .f32) (ix1 q) = (V c main_arg6 : S128.Idx → EReal) (ix1 q) := by
  obtain ⟨-, -, -, -, -, -, -, -, e0, -⟩ := block_indices1 t
  unfold iblk1
  rw [View.read_apply]
  show V c main_arg6 _ = V c main_arg6 _
  refine congrArg (V c main_arg6) (funext fun a => Fin.ext ?_)
  match a with
  | ⟨0, _⟩ => show win1_4.index t (0 : Fin 1) * 128 + 1 * q.val = q.val; omega

/-- What point t writes back is block t of the layer applied to the region's whole input arrays. -/
theorem flushed_eq :
    (dat1 (F := Ideal) V c).flushed 5 t = ((cfg1.win 5).blk t).view.read (Elt Ideal)
      (Cert.Spec.layerK (V c main_v53) (V c main_v41) (V c main_v28) (V c main_arg5) (V c main_arg6)) := by
  show (cfg1.win 5).cut (grid1.coords t) ((dat1 V c).after 5 t) = _
  rw [after1_5]
  unfold out1_5
  rw [View.canon_unit_zero zero_offsets2]
  simp only [View.ld_unit_zero (S := S5000x128) zero_offsets2, View.ld_unit_zero (S := S5000x1) zero_offsets2,
    View.ld_unit_zero (S := S128x128) zero_offsets2, View.ld_unit_zero (S := S128) zero_offsets1]
  funext j
  have hj0 : (j 0).val < 5000 := (j 0).isLt
  have hj1 : (j 1).val < 128 := (j 1).isLt
  have ht : t.val < 20 := Nat.lt_of_lt_of_eq t.isLt N_1
  obtain ⟨-, -, -, -, -, -, -, -, -, e0, e1⟩ := block_indices1 t
  rw [View.read_apply]
  have hemb : ((cfg1.win 5).blk t).view.emb j
      = (ix2 (⟨t.val * 5000 + (j 0).val, by omega⟩ : Fin 100000) (⟨(j 1).val, hj1⟩ : Fin 128) : S100000x128.Idx) := by
    funext a; apply Fin.ext
    match a with
    | ⟨0, _⟩ => show win1_5.index t (0 : Fin 2) * 5000 + 1 * (j 0).val = t.val * 5000 + (j 0).val; omega
    | ⟨1, _⟩ => show win1_5.index t (1 : Fin 2) * 128 + 1 * (j 1).val = (j 1).val; omega
  refine Eq.trans ?_ (congrArg (Cert.Spec.layerK (V c main_v53) (V c main_v41) (V c main_v28) (V c main_arg5) (V c main_arg6)) hemb).symm
  rw [Cert.Spec.layerK_ix2]
  have hin : (cfg1.win 5).xinj (grid1.coords t) j = (ix2 (⟨(j 0).val, hj0⟩ : Fin 5000) (⟨(j 1).val, hj1⟩ : Fin 128) : S5000x128.Idx) := by
    funext a; apply Fin.ext
    match a with
    | ⟨0, _⟩ => rfl
    | ⟨1, _⟩ => rfl
  refine (congrArg (k1_pay1 (F := Ideal) (iblk1 V c 0 t) (iblk1 V c 1 t) (iblk1 V c 2 t) (iblk1 V c 3 t) (iblk1 V c 4 t)) hin).trans ?_
  refine (KBody.k1_pay1_apply (iblk1 V c 0 t) (iblk1 V c 1 t) (iblk1 V c 2 t) (iblk1 V c 3 t) (iblk1 V c 4 t) ⟨(j 0).val, hj0⟩ ⟨(j 1).val, hj1⟩).trans ?_
  exact KBody.layer_block_entry _ _ _ _ _ _ _ _ _ _ _ _ _
    (fun k => block_S V c t _ k _ rfl) (fun k => block_h V c t _ k _ rfl) (block_sn V c t _ _ rfl)
    (fun k => block_W V c t k _) (block_b V c t _)

/-- Every entry of the output array lies in some point's block: row r in the block of point r / 5000. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, -, -, -, -, -, e0, e1⟩ := block_indices1 t
  have e0' : win1_5.index t (0 : Fin 2) = (i 0).val / 5000 := e0
  refine ⟨t, flush1_5 t, ?_⟩
  show i ∈ ((View.whole main_v54).slice (win1_5.rect t)).set
  rw [View.set_slice_whole, Rect.mem_set_unit]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

end

end R1

/-- After region 1 every block of its output array has been written: the whole array is the dense stage applied
    to the region's whole input arrays as the region found them. -/
theorem arr1 (V : (c : Dev nD) → (b : Ref sig .tc) → Buf (Elt Ideal) ((c : Thread nD τ).loc b)) (c : Dev nD) :
    ((dat1 (F := Ideal) V c).arrAt 5 cfg1.N : S100000x128.Idx → EReal)
      = Cert.Spec.layerK (V c main_v53) (V c main_v41) (V c main_v28) (V c main_arg5) (V c main_arg6) :=
  (dat1 (F := Ideal) V c).arrAt_eq_of_cover 5 _ (fun t _ => R1.flushed_eq V c t) R1.covered

end Cert.KernelIdeal.KRegion

end
-- ==== Proof.KRegion2.lean ====
/-
  Region 2: from the blocks its grid points write to the whole output array.

  The grid has 20 points; point t reads rows 5000·t … 5000·t+4999 of the aggregated features, of the node features
  and of the self-loop column, together with the whole weight matrix and the whole bias, and writes the same rows of
  the output. Entry (p, q) of the block it writes is the layer's entry (5000·t + p, q) of the whole input arrays, so
  what it writes back is block t of the layer applied to the whole arrays; row r of the output lies in the block of
  point r / 5000, so the 20 blocks cover the array, and the array after the region is that one function.
-/
import proofs.«179693_j27702539059471_2_alg».proof.Proof.Gen.KernelIdeal.Frame
import proofs.«179693_j27702539059471_2_alg».proof.Proof.Spec
import proofs.«179693_j27702539059471_2_alg».proof.Proof.KBody
import Idealize.ShloMosaic.Lib.Pipeline.Value

noncomputable section

namespace Cert.KernelIdeal.KRegion

open Cert.KernelIdeal Cert.KernelIdeal.Gen Idealize.ShloMosaic Idealize.ShloMosaic.TcCoe Idealize.SL.Sem
open Idealize.ShloMosaic.ValueIdx
open Idealize.ShloMosaic.Pipeline (Dat)

namespace R2

open Cert.KernelIdeal.KBody (zero_offsets2 zero_offsets1)

/-- The printed index maps, decided over the 20 grid points: the three row-blocked inputs and the output sit at
    block row t, block column 0; the weight matrix and the bias are their one block at every point. -/
theorem block_indices2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

section
variable (V : (c : Dev nD) → (b : Ref sig .tc) → Buf (Elt Ideal) ((c : Thread nD τ).loc b)) (c : Dev nD) (t : Fin cfg2.N)

/-- Block t of the aggregated features is rows 5000·t … 5000·t+4999 of the array. -/
theorem block_S (p : Fin 5000) (k : Fin 128) (P : Fin 100000) (hP : P.val = t.val * 5000 + p.val) :
    (iblk2 (F := Ideal) V c 0 t : Vec Ideal S5000x128 .f32) (ix2 p k) = (V c main_v66 : S100000x128.Idx → EReal) (ix2 P k) := by
  obtain ⟨e0, e1, -⟩ := block_indices2 t
  unfold iblk2
  rw [View.read_apply]
  show V c main_v66 _ = V c main_v66 _
  refine congrArg (V c main_v66) (funext fun a => Fin.ext ?_)
  match a with
  | ⟨0, _⟩ => show win2_0.index t (0 : Fin 2) * 5000 + 1 * p.val = P.val; omega
  | ⟨1, _⟩ => show win2_0.index t (1 : Fin 2) * 128 + 1 * k.val = k.val; omega

/-- Block t of the node features is the same rows of its array. -/
theorem block_h (p : Fin 5000) (k : Fin 128) (P : Fin 100000) (hP : P.val = t.val * 5000 + p.val) :
    (iblk2 (F := Ideal) V c 1 t : Vec Ideal S5000x128 .f32) (ix2 p k) = (V c main_v54 : S100000x128.Idx → EReal) (ix2 P k) := by
  obtain ⟨-, -, e0, e1, -⟩ := block_indices2 t
  unfold iblk2
  rw [View.read_apply]
  show V c main_v54 _ = V c main_v54 _
  refine congrArg (V c main_v54) (funext fun a => Fin.ext ?_)
  match a with
  | ⟨0, _⟩ => show win2_1.index t (0 : Fin 2) * 5000 + 1 * p.val = P.val; omega
  | ⟨1, _⟩ => show win2_1.index t (1 : Fin 2) * 128 + 1 * k.val = k.val; omega

/-- Block t of the self-loop column is the same rows of the column. -/
theorem block_sn (p : Fin 5000) (P : Fin 100000) (hP : P.val = t.val * 5000 + p.val) :
    (iblk2 (F := Ideal) V c 2 t : Vec Ideal S5000x1 .f32) (ix2 p (0 : Fin 1)) = (V c main_v28 : S100000x1.Idx → EReal) (ix2 P (0 : Fin 1)) := by
  obtain ⟨-, -, -, -, e0, e1, -⟩ := block_indices2 t
  unfold iblk2
  rw [View.read_apply]
  show V c main_v28 _ = V c main_v28 _
  refine congrArg (V c main_v28) (funext fun a => Fin.ext ?_)
  match a with
  | ⟨0, _⟩ => show win2_2.index t (0 : Fin 2) * 5000 + 1 * p.val = P.val; omega
  | ⟨1, _⟩ => show win2_2.index t (1 : Fin 2) * 1 + 1 * 0 = 0; omega

/-- The weight block at every point is the whole weight matrix. -/
theorem block_W (k q : Fin 128) :
    (iblk2 (F := Ideal) V c 3 t : Vec Ideal S128x128 .f32) (ix2 k q) = (V c main_arg7 : S128x128.Idx → EReal) (ix2 k q) := by
  obtain ⟨-, -, -, -, -, -, e0, e1, -⟩ := block_indices2 t
  unfold iblk2
  rw [View.read_apply]
  show V c main_arg7 _ = V c main_arg7 _
  refine congrArg (V c main_arg7) (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- The bias block at every point is the whole bias. -/
theorem block_b (q : Fin 128) :
    (iblk2 (F := Ideal) V c 4 t : Vec Ideal S128 .f32) (ix1 q) = (V c main_arg8 : S128.Idx → EReal) (ix1 q) := by
  obtain ⟨-, -, -, -, -, -, -, -, e0, -⟩ := block_indices2 t
  unfold iblk2
  rw [View.read_apply]
  show V c main_arg8 _ = V c main_arg8 _
  refine congrArg (V c main_arg8) (funext fun a => Fin.ext ?_)
  match a with
  | ⟨0, _⟩ => show win2_4.index t (0 : Fin 1) * 128 + 1 * q.val = q.val; omega

/-- What point t writes back is block t of the layer applied to the region's whole input arrays. -/
theorem flushed_eq :
    (dat2 (F := Ideal) V c).flushed 5 t = ((cfg2.win 5).blk t).view.read (Elt Ideal)
      (Cert.Spec.layerK (V c main_v66) (V c main_v54) (V c main_v28) (V c main_arg7) (V c main_arg8)) := by
  show (cfg2.win 5).cut (grid2.coords t) ((dat2 V c).after 5 t) = _
  rw [after2_5]
  unfold out2_5
  rw [View.canon_unit_zero zero_offsets2]
  simp only [View.ld_unit_zero (S := S5000x128) zero_offsets2, View.ld_unit_zero (S := S5000x1) zero_offsets2,
    View.ld_unit_zero (S := S128x128) zero_offsets2, View.ld_unit_zero (S := S128) zero_offsets1]
  funext j
  have hj0 : (j 0).val < 5000 := (j 0).isLt
  have hj1 : (j 1).val < 128 := (j 1).isLt
  have ht : t.val < 20 := Nat.lt_of_lt_of_eq t.isLt N_2
  obtain ⟨-, -, -, -, -, -, -, -, -, e0, e1⟩ := block_indices2 t
  rw [View.read_apply]
  have hemb : ((cfg2.win 5).blk t).view.emb j
      = (ix2 (⟨t.val * 5000 + (j 0).val, by omega⟩ : Fin 100000) (⟨(j 1).val, hj1⟩ : Fin 128) : S100000x128.Idx) := by
    funext a; apply Fin.ext
    match a with
    | ⟨0, _⟩ => show win2_5.index t (0 : Fin 2) * 5000 + 1 * (j 0).val = t.val * 5000 + (j 0).val; omega
    | ⟨1, _⟩ => show win2_5.index t (1 : Fin 2) * 128 + 1 * (j 1).val = (j 1).val; omega
  refine Eq.trans ?_ (congrArg (Cert.Spec.layerK (V c main_v66) (V c main_v54) (V c main_v28) (V c main_arg7) (V c main_arg8)) hemb).symm
  rw [Cert.Spec.layerK_ix2]
  have hin : (cfg2.win 5).xinj (grid2.coords t) j = (ix2 (⟨(j 0).val, hj0⟩ : Fin 5000) (⟨(j 1).val, hj1⟩ : Fin 128) : S5000x128.Idx) := by
    funext a; apply Fin.ext
    match a with
    | ⟨0, _⟩ => rfl
    | ⟨1, _⟩ => rfl
  refine (congrArg (k2_pay1 (F := Ideal) (iblk2 V c 0 t) (iblk2 V c 1 t) (iblk2 V c 2 t) (iblk2 V c 3 t) (iblk2 V c 4 t)) hin).trans ?_
  refine (KBody.k2_pay1_apply (iblk2 V c 0 t) (iblk2 V c 1 t) (iblk2 V c 2 t) (iblk2 V c 3 t) (iblk2 V c 4 t) ⟨(j 0).val, hj0⟩ ⟨(j 1).val, hj1⟩).trans ?_
  exact KBody.layer_block_entry _ _ _ _ _ _ _ _ _ _ _ _ _
    (fun k => block_S V c t _ k _ rfl) (fun k => block_h V c t _ k _ rfl) (block_sn V c t _ _ rfl)
    (fun k => block_W V c t k _) (block_b V c t _)

/-- Every entry of the output array lies in some point's block: row r in the block of point r / 5000. -/
theorem covered (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨-, -, -, -, -, -, -, -, -, e0, e1⟩ := block_indices2 t
  have e0' : win2_5.index t (0 : Fin 2) = (i 0).val / 5000 := e0
  refine ⟨t, flush2_5 t, ?_⟩
  show i ∈ ((View.whole main_v67).slice (win2_5.rect t)).set
  rw [View.set_slice_whole, Rect.mem_set_unit]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

end

end R2

/-- After region 2 every block of its output array has been written: the whole array is the dense stage applied
    to the region's whole input arrays as the region found them. -/
theorem arr2 (V : (c : Dev nD) → (b : Ref sig .tc) → Buf (Elt Ideal) ((c : Thread nD τ).loc b)) (c : Dev nD) :
    ((dat2 (F := Ideal) V c).arrAt 5 cfg2.N : S100000x128.Idx → EReal)
      = Cert.Spec.layerK (V c main_v66) (V c main_v54) (V c main_v28) (V c main_arg7) (V c main_arg8) :=
  (dat2 (F := Ideal) V c).arrAt_eq_of_cover 5 _ (fun t _ => R2.flushed_eq V c t) R2.covered

end Cert.KernelIdeal.KRegion

end
-- ==== Proof.KRegion3.lean ====
/-
  Region 3: the read-out. Its grid has one point, and every window is its whole array.

  The one point reads the per-graph feature sums, the per-graph node counts, the weight column and the one-entry
  bias whole, and writes the whole output column. Entry (g, 0) of what it writes is the read-out's entry g of the
  input arrays; the one block covers the output, so the array after the region is the read-out applied to the
  region's input arrays.
-/
import proofs.«179693_j27702539059471_2_alg».proof.Proof.Gen.KernelIdeal.Frame
import proofs.«179693_j27702539059471_2_alg».proof.Proof.Spec
import proofs.«179693_j27702539059471_2_alg».proof.Proof.KBody
import Idealize.ShloMosaic.Lib.Pipeline.Value

noncomputable section

namespace Cert.KernelIdeal.KRegion

open Cert.KernelIdeal Cert.KernelIdeal.Gen Idealize.ShloMosaic Idealize.ShloMosaic.TcCoe Idealize.SL.Sem
open Idealize.ShloMosaic.ValueIdx
open Idealize.ShloMosaic.Pipeline (Dat)

namespace R3

open Cert.KernelIdeal.KBody (zero_offsets2 zero_offsets1)

/-- The printed index maps, decided over the one grid point: every window is block 0 on every axis. -/
theorem block_indices3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0 :=
  (by decide +kernel : ∀ t : Fin grid3.N, _)

section
variable (V : (c : Dev nD) → (b : Ref sig .tc) → Buf (Elt Ideal) ((c : Thread nD τ).loc b)) (c : Dev nD) (t : Fin cfg3.N)

/-- The block of the per-graph sums is the whole array. -/
theorem block_sums (g : Fin 512) (k : Fin 128) :
    (iblk3 (F := Ideal) V c 0 t : Vec Ideal S512x128 .f32) (ix2 g k) = (V c main_v70 : S512x128.Idx → EReal) (ix2 g k) := by
  obtain ⟨e0, e1, -⟩ := block_indices3 t
  unfold iblk3
  rw [View.read_apply]
  show V c main_v70 _ = V c main_v70 _
  refine congrArg (V c main_v70) (funext fun a => Fin.ext ?_)
  match a with
  | ⟨0, _⟩ => show win3_0.index t (0 : Fin 2) * 512 + 1 * g.val = g.val; omega
  | ⟨1, _⟩ => show win3_0.index t (1 : Fin 2) * 128 + 1 * k.val = k.val; omega

/-- The block of the per-graph counts is the whole column. -/
theorem block_counts (g : Fin 512) :
    (iblk3 (F := Ideal) V c 1 t : Vec Ideal S512x1 .f32) (ix2 g (0 : Fin 1)) = (V c main_v74 : S512x1.Idx → EReal) (ix2 g (0 : Fin 1)) := by
  obtain ⟨-, -, e0, e1, -⟩ := block_indices3 t
  unfold iblk3
  rw [View.read_apply]
  show V c main_v74 _ = V c main_v74 _
  refine congrArg (V c main_v74) (funext fun a => Fin.ext ?_)
  match a with
  | ⟨0, _⟩ => show win3_1.index t (0 : Fin 2) * 512 + 1 * g.val = g.val; omega
  | ⟨1, _⟩ => show win3_1.index t (1 : Fin 2) * 1 + 1 * 0 = 0; omega

/-- The block of the weight column is the whole column. -/
theorem block_weight (k : Fin 128) (r : Fin 1) :
    (iblk3 (F := Ideal) V c 2 t : Vec Ideal S128x1 .f32) (ix2 k r) = (V c main_arg9 : S128x1.Idx → EReal) (ix2 k (0 : Fin 1)) := by
  obtain ⟨-, -, -, -, e0, e1, -⟩ := block_indices3 t
  have hr : r.val = 0 := by omega
  unfold iblk3
  rw [View.read_apply]
  show V c main_arg9 _ = V c main_arg9 _
  refine congrArg (V c main_arg9) (funext fun a => Fin.ext ?_)
  match a with
  | ⟨0, _⟩ => show win3_2.index t (0 : Fin 2) * 128 + 1 * k.val = k.val; omega
  | ⟨1, _⟩ => show win3_2.index t (1 : Fin 2) * 1 + 1 * r.val = 0; omega

/-- The block of the bias is the whole one-entry vector. -/
theorem block_bias :
    (iblk3 (F := Ideal) V c 3 t : Vec Ideal S1 .f32) (ix1 (0 : Fin 1)) = (V c main_arg10 : S1.Idx → EReal) (ix1 (0 : Fin 1)) := by
  obtain ⟨-, -, -, -, -, -, e0, -⟩ := block_indices3 t
  unfold iblk3
  rw [View.read_apply]
  show V c main_arg10 _ = V c main_arg10 _
  refine congrArg (V c main_arg10) (funext fun a => Fin.ext ?_)
  match a with
  | ⟨0, _⟩ => show win3_3.index t (0 : Fin 1) * 1 + 1 * 0 = 0; omega

/-- What the point writes back is its block of the read-out applied to the region's whole input arrays. -/
theorem flushed_eq :
    (dat3 (F := Ideal) V c).flushed 4 t = ((cfg3.win 4).blk t).view.read (Elt Ideal)
      (Cert.Spec.poolK (V c main_v70) (V c main_v74) (V c main_arg9) (V c main_arg10)) := by
  show (cfg3.win 4).cut (grid3.coords t) ((dat3 V c).after 4 t) = _
  rw [after3_4]
  unfold out3_4
  rw [View.canon_unit_zero zero_offsets2]
  simp only [View.ld_unit_zero (S := S512x128) zero_offsets2, View.ld_unit_zero (S := S512x1) zero_offsets2,
    View.ld_unit_zero (S := S128x1) zero_offsets2, View.ld_unit_zero (S := S1) zero_offsets1]
  funext j
  have hj0 : (j 0).val < 512 := (j 0).isLt
  have hj1 : (j 1).val < 1 := (j 1).isLt
  obtain ⟨-, -, -, -, -, -, -, e0, e1⟩ := block_indices3 t
  rw [View.read_apply]
  have hemb : ((cfg3.win 4).blk t).view.emb j
      = (ix2 (⟨(j 0).val, hj0⟩ : Fin 512) (⟨(j 1).val, hj1⟩ : Fin 1) : S512x1.Idx) := by
    funext a; apply Fin.ext
    match a with
    | ⟨0, _⟩ => show win3_4.index t (0 : Fin 2) * 512 + 1 * (j 0).val = (j 0).val; omega
    | ⟨1, _⟩ => show win3_4.index t (1 : Fin 2) * 1 + 1 * (j 1).val = (j 1).val; omega
  refine Eq.trans ?_ (congrArg (Cert.Spec.poolK (V c main_v70) (V c main_v74) (V c main_arg9) (V c main_arg10)) hemb).symm
  rw [Cert.Spec.poolK_ix2]
  have hin : (cfg3.win 4).xinj (grid3.coords t) j = (ix2 (⟨(j 0).val, hj0⟩ : Fin 512) (⟨(j 1).val, hj1⟩ : Fin 1) : S512x1.Idx) := by
    funext a; apply Fin.ext
    match a with
    | ⟨0, _⟩ => rfl
    | ⟨1, _⟩ => rfl
  refine (congrArg (k3_pay1 (F := Ideal) (iblk3 V c 0 t) (iblk3 V c 1 t) (iblk3 V c 2 t) (iblk3 V c 3 t)) hin).trans ?_
  refine (KBody.k3_pay1_apply (iblk3 V c 0 t) (iblk3 V c 1 t) (iblk3 V c 2 t) (iblk3 V c 3 t) ⟨(j 0).val, hj0⟩ ⟨(j 1).val, hj1⟩).trans ?_
  exact KBody.pool_block_entry _ _ _ _ _ _ _ _ _ _
    (fun k => block_sums V c t _ k) (block_counts V c t _) (fun k => block_weight V c t k _) (block_bias V c t)

/-- Every entry of the output column lies in the one point's block. -/
theorem covered (i : S512x1.Idx) :
    ∃ t : Fin cfg3.N, (cfg3.win 4).flush t = true ∧ i ∈ ((cfg3.win 4).blk t).view.set := by
  have hi0 : (i 0).val < 512 := (i 0).isLt
  have hi1 : (i 1).val < 1 := (i 1).isLt
  obtain ⟨-, -, -, -, -, -, -, e0, e1⟩ := block_indices3 t3_0
  refine ⟨t3_0, flush3_4 t3_0, ?_⟩
  show i ∈ ((View.whole main_v75).slice (win3_4.rect t3_0)).set
  rw [View.set_slice_whole, Rect.mem_set_unit]
  intro a
  match a with
  | ⟨0, _⟩ => show win3_4.index t3_0 (0 : Fin 2) * 512 ≤ (i 0).val ∧ (i 0).val < win3_4.index t3_0 (0 : Fin 2) * 512 + 512; omega
  | ⟨1, _⟩ => show win3_4.index t3_0 (1 : Fin 2) * 1 ≤ (i 1).val ∧ (i 1).val < win3_4.index t3_0 (1 : Fin 2) * 1 + 1; omega

end

end R3

/-- After region 3 every block of its output array has been written: the whole array is the dense stage applied
    to the region's whole input arrays as the region found them. -/
theorem arr3 (V : (c : Dev nD) → (b : Ref sig .tc) → Buf (Elt Ideal) ((c : Thread nD τ).loc b)) (c : Dev nD) :
    ((dat3 (F := Ideal) V c).arrAt 4 cfg3.N : S512x1.Idx → EReal)
      = Cert.Spec.poolK (V c main_v70) (V c main_v74) (V c main_arg9) (V c main_arg10) :=
  (dat3 (F := Ideal) V c).arrAt_eq_of_cover 4 _ (fun t _ => R3.flushed_eq V c t) R3.covered

end Cert.KernelIdeal.KRegion

end
-- ==== Proof.KHost.lean ====
/-
  The result buffer at the return, walked back to the launch contents.

  The run's buffer contents are folded boundary by boundary: a stretch of whole-array operations rewrites exactly the
  buffers it writes, a dense stage rewrites exactly its output array. Reading the result buffer backwards: the read-out
  stage applied to the per-graph sums and counts; the sums are taken of the third layer's output; each layer's output
  is the dense stage applied to the aggregate of the previous layer's output, that output itself, the self-loop
  weights and the layer's parameters; the aggregate is taken over the edge rows and edge weights that the first
  stretch prepared from the edge list. A buffer written early and read late (the edge rows, the two weight columns, a
  layer's output, an argument) is carried through every boundary in between unchanged, because no operation and no
  dense stage in between writes it.
-/
import proofs.«179693_j27702539059471_2_alg».proof.Proof.Gen.KernelIdeal.Frame
import proofs.«179693_j27702539059471_2_alg».proof.Proof.Spec
import proofs.«179693_j27702539059471_2_alg».proof.Proof.KSpec
import proofs.«179693_j27702539059471_2_alg».proof.Proof.KStretch
import proofs.«179693_j27702539059471_2_alg».proof.Proof.KRegion0
import proofs.«179693_j27702539059471_2_alg».proof.Proof.KRegion1
import proofs.«179693_j27702539059471_2_alg».proof.Proof.KRegion2
import proofs.«179693_j27702539059471_2_alg».proof.Proof.KRegion3

noncomputable section

namespace Cert.KernelIdeal.KHost

open Cert.KernelIdeal Cert.KernelIdeal.Gen Idealize.ShloMosaic Idealize.ShloMosaic.TcCoe Idealize.SL.Sem
open Cert.KernelIdeal.KStretch

section Walk

variable (m : (ℓ : Loc nD τ sig) → Buf (Elt Ideal) ℓ) (ρ : Dev nD → PrngReg) (c : Dev nD)

/-! ## After the first stretch: the graph's pieces and the first aggregate, as functions of the launch contents -/

theorem W1_v1 : (W1 m ρ c (Proc.devRef .tc main_v1) : (⟨S1600000, .i32⟩ : BufTy).Contents (Elt Ideal)) = KSpec.srcRow (F := Ideal) (m ((c : Thread nD τ).loc main_arg1)) := host0_v1 (W0 m ρ c)

theorem W1_v3 : (W1 m ρ c (Proc.devRef .tc main_v3) : (⟨S1600000, .i32⟩ : BufTy).Contents (Elt Ideal)) = KSpec.dstRow (F := Ideal) (m ((c : Thread nD τ).loc main_arg1)) := host0_v3 (W0 m ρ c)

theorem W1_v26 : (W1 m ρ c (Proc.devRef .tc main_v26) : (⟨S1600000x1, .f32⟩ : BufTy).Contents (Elt Ideal)) = KSpec.enorm (F := Ideal) (m ((c : Thread nD τ).loc main_arg1)) := host0_v26 (W0 m ρ c)

theorem W1_v28 : (W1 m ρ c (Proc.devRef .tc main_v28) : (⟨S100000x1, .f32⟩ : BufTy).Contents (Elt Ideal)) = KSpec.snorm (F := Ideal) (m ((c : Thread nD τ).loc main_arg1)) := host0_v28 (W0 m ρ c)

theorem W1_v40 : (W1 m ρ c (Proc.devRef .tc main_v40) : (⟨S100000x128, .f32⟩ : BufTy).Contents (Elt Ideal)) = KSpec.agg (F := Ideal) (m ((c : Thread nD τ).loc main_arg0)) (m ((c : Thread nD τ).loc main_arg1)) := host0_v40 (W0 m ρ c)

/-! ## The first dense stage -/

theorem W0_arg0 : W0 m ρ c (Proc.devRef .tc main_arg0) = m ((c : Thread nD τ).loc main_arg0) :=
  rfl

theorem W1_arg0 : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg0 m ρ c)

theorem W0_arg3 : W0 m ρ c (Proc.devRef .tc main_arg3) = m ((c : Thread nD τ).loc main_arg3) :=
  rfl

theorem W1_arg3 : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg3 m ρ c)

theorem W0_arg4 : W0 m ρ c (Proc.devRef .tc main_arg4) = m ((c : Thread nD τ).loc main_arg4) :=
  rfl

theorem W1_arg4 : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg4 m ρ c)

theorem W2_v41 : (W2 m ρ c (Proc.devRef .tc main_v41) : S100000x128.Idx → EReal) = (KSpec.layer (m ((c : Thread nD τ).loc main_arg0)) (m ((c : Thread nD τ).loc main_arg1)) (m ((c : Thread nD τ).loc main_arg3)) (m ((c : Thread nD τ).loc main_arg4))) := by
  refine (W2_arr m ρ c 5).trans ((KRegion.arr0 (V1 m ρ) c).trans ?_)
  show Cert.Spec.layerK (W1 m ρ c (Proc.devRef .tc main_v40)) (W1 m ρ c (Proc.devRef .tc main_arg0)) (W1 m ρ c (Proc.devRef .tc main_v28)) (W1 m ρ c (Proc.devRef .tc main_arg3)) (W1 m ρ c (Proc.devRef .tc main_arg4)) = _
  rw [W1_v40 m ρ c, W1_arg0 m ρ c, W1_v28 m ρ c, W1_arg3 m ρ c, W1_arg4 m ρ c]
  rfl

/-! ## The second stretch aggregates the first layer's output over the same pieces -/

theorem W2_v1 : (W2 m ρ c (Proc.devRef .tc main_v1) : (⟨S1600000, .i32⟩ : BufTy).Contents (Elt Ideal)) = KSpec.srcRow (F := Ideal) (m ((c : Thread nD τ).loc main_arg1)) :=
  (W2_of_ne m ρ c main_v1 (by decide)).trans (W1_v1 m ρ c)

theorem W2_v3 : (W2 m ρ c (Proc.devRef .tc main_v3) : (⟨S1600000, .i32⟩ : BufTy).Contents (Elt Ideal)) = KSpec.dstRow (F := Ideal) (m ((c : Thread nD τ).loc main_arg1)) :=
  (W2_of_ne m ρ c main_v3 (by decide)).trans (W1_v3 m ρ c)

theorem W2_v26 : (W2 m ρ c (Proc.devRef .tc main_v26) : (⟨S1600000x1, .f32⟩ : BufTy).Contents (Elt Ideal)) = KSpec.enorm (F := Ideal) (m ((c : Thread nD τ).loc main_arg1)) :=
  (W2_of_ne m ρ c main_v26 (by decide)).trans (W1_v26 m ρ c)

theorem W3_v53 : (W3 m ρ c (Proc.devRef .tc main_v53) : (⟨S100000x128, .f32⟩ : BufTy).Contents (Elt Ideal)) = KSpec.agg (F := Ideal) (KSpec.layer (m ((c : Thread nD τ).loc main_arg0)) (m ((c : Thread nD τ).loc main_arg1)) (m ((c : Thread nD τ).loc main_arg3)) (m ((c : Thread nD τ).loc main_arg4))) (m ((c : Thread nD τ).loc main_arg1)) := by
  refine (host1_v53 (W2 m ρ c)).trans ?_
  rw [W2_v41 m ρ c, W2_v1 m ρ c, W2_v3 m ρ c, W2_v26 m ρ c]
  exact (agg_eq _ _).symm

/-! ## The second dense stage -/

theorem W3_v41 : (W3 m ρ c (Proc.devRef .tc main_v41) : S100000x128.Idx → EReal) = (KSpec.layer (m ((c : Thread nD τ).loc main_arg0)) (m ((c : Thread nD τ).loc main_arg1)) (m ((c : Thread nD τ).loc main_arg3)) (m ((c : Thread nD τ).loc main_arg4))) :=
  (StableHlo.after_of_forall_not_mem (b := Proc.devRef .tc main_v41) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v41 m ρ c)

theorem W2_v28 : (W2 m ρ c (Proc.devRef .tc main_v28) : (⟨S100000x1, .f32⟩ : BufTy).Contents (Elt Ideal)) = KSpec.snorm (F := Ideal) (m ((c : Thread nD τ).loc main_arg1)) :=
  ((W2_arr m ρ c 2).trans (((dat0 (V1 m ρ) c).arrAt_in 2 rfl _).trans (A_eq0 (V1 m ρ) c 2))).trans (W1_v28 m ρ c)

theorem W3_v28 : (W3 m ρ c (Proc.devRef .tc main_v28) : (⟨S100000x1, .f32⟩ : BufTy).Contents (Elt Ideal)) = KSpec.snorm (F := Ideal) (m ((c : Thread nD τ).loc main_arg1)) :=
  (StableHlo.after_of_forall_not_mem (b := Proc.devRef .tc main_v28) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v28 m ρ c)

theorem W0_arg5 : W0 m ρ c (Proc.devRef .tc main_arg5) = m ((c : Thread nD τ).loc main_arg5) :=
  rfl

theorem W1_arg5 : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg5 m ρ c)

theorem W2_arg5 : W2 m ρ c (Proc.devRef .tc main_arg5) = m ((c : Thread nD τ).loc main_arg5) :=
  (W2_of_ne m ρ c main_arg5 (by decide)).trans (W1_arg5 m ρ c)

theorem W3_arg5 : W3 m ρ c (Proc.devRef .tc main_arg5) = m ((c : Thread nD τ).loc main_arg5) :=
  (StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg5 m ρ c)

theorem W0_arg6 : W0 m ρ c (Proc.devRef .tc main_arg6) = m ((c : Thread nD τ).loc main_arg6) :=
  rfl

theorem W1_arg6 : W1 m ρ c (Proc.devRef .tc main_arg6) = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg6 m ρ c)

theorem W2_arg6 : W2 m ρ c (Proc.devRef .tc main_arg6) = m ((c : Thread nD τ).loc main_arg6) :=
  (W2_of_ne m ρ c main_arg6 (by decide)).trans (W1_arg6 m ρ c)

theorem W3_arg6 : W3 m ρ c (Proc.devRef .tc main_arg6) = m ((c : Thread nD τ).loc main_arg6) :=
  (StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg6 m ρ c)

theorem W4_v54 : (W4 m ρ c (Proc.devRef .tc main_v54) : S100000x128.Idx → EReal) = (KSpec.layer (KSpec.layer (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg5)) (m ((c : Thread nD τ).loc main_arg6))) := by
  refine (W4_arr m ρ c 5).trans ((KRegion.arr1 (V3 m ρ) c).trans ?_)
  show Cert.Spec.layerK (W3 m ρ c (Proc.devRef .tc main_v53)) (W3 m ρ c (Proc.devRef .tc main_v41)) (W3 m ρ c (Proc.devRef .tc main_v28)) (W3 m ρ c (Proc.devRef .tc main_arg5)) (W3 m ρ c (Proc.devRef .tc main_arg6)) = _
  rw [W3_v53 m ρ c, W3_v41 m ρ c, W3_v28 m ρ c, W3_arg5 m ρ c, W3_arg6 m ρ c]
  rfl

/-! ## The third stretch aggregates the second layer's output -/

theorem W3_v1 : (W3 m ρ c (Proc.devRef .tc main_v1) : (⟨S1600000, .i32⟩ : BufTy).Contents (Elt Ideal)) = KSpec.srcRow (F := Ideal) (m ((c : Thread nD τ).loc main_arg1)) :=
  (StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v1 m ρ c)

theorem W4_v1 : (W4 m ρ c (Proc.devRef .tc main_v1) : (⟨S1600000, .i32⟩ : BufTy).Contents (Elt Ideal)) = KSpec.srcRow (F := Ideal) (m ((c : Thread nD τ).loc main_arg1)) :=
  (W4_of_ne m ρ c main_v1 (by decide)).trans (W3_v1 m ρ c)

theorem W3_v3 : (W3 m ρ c (Proc.devRef .tc main_v3) : (⟨S1600000, .i32⟩ : BufTy).Contents (Elt Ideal)) = KSpec.dstRow (F := Ideal) (m ((c : Thread nD τ).loc main_arg1)) :=
  (StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v3 m ρ c)

theorem W4_v3 : (W4 m ρ c (Proc.devRef .tc main_v3) : (⟨S1600000, .i32⟩ : BufTy).Contents (Elt Ideal)) = KSpec.dstRow (F := Ideal) (m ((c : Thread nD τ).loc main_arg1)) :=
  (W4_of_ne m ρ c main_v3 (by decide)).trans (W3_v3 m ρ c)

theorem W3_v26 : (W3 m ρ c (Proc.devRef .tc main_v26) : (⟨S1600000x1, .f32⟩ : BufTy).Contents (Elt Ideal)) = KSpec.enorm (F := Ideal) (m ((c : Thread nD τ).loc main_arg1)) :=
  (StableHlo.after_of_forall_not_mem (b := Proc.devRef .tc main_v26) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v26 m ρ c)

theorem W4_v26 : (W4 m ρ c (Proc.devRef .tc main_v26) : (⟨S1600000x1, .f32⟩ : BufTy).Contents (Elt Ideal)) = KSpec.enorm (F := Ideal) (m ((c : Thread nD τ).loc main_arg1)) :=
  (W4_of_ne m ρ c main_v26 (by decide)).trans (W3_v26 m ρ c)

theorem W5_v66 : (W5 m ρ c (Proc.devRef .tc main_v66) : (⟨S100000x128, .f32⟩ : BufTy).Contents (Elt Ideal)) = KSpec.agg (F := Ideal) (KSpec.layer (KSpec.layer (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg5)) (m ((c : Thread nD τ).loc main_arg6))) (m ((c : Thread nD τ).loc main_arg1)) := by
  refine (host2_v66 (W4 m ρ c)).trans ?_
  rw [W4_v54 m ρ c, W4_v1 m ρ c, W4_v3 m ρ c, W4_v26 m ρ c]
  exact (agg_eq _ _).symm

/-! ## The third dense stage -/

theorem W5_v54 : (W5 m ρ c (Proc.devRef .tc main_v54) : S100000x128.Idx → EReal) = (KSpec.layer (KSpec.layer (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg5)) (m ((c : Thread nD τ).loc main_arg6))) :=
  (StableHlo.after_of_forall_not_mem (b := Proc.devRef .tc main_v54) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_v54 m ρ c)

theorem W4_v28 : (W4 m ρ c (Proc.devRef .tc main_v28) : (⟨S100000x1, .f32⟩ : BufTy).Contents (Elt Ideal)) = KSpec.snorm (F := Ideal) (m ((c : Thread nD τ).loc main_arg1)) :=
  ((W4_arr m ρ c 2).trans (((dat1 (V3 m ρ) c).arrAt_in 2 rfl _).trans (A_eq1 (V3 m ρ) c 2))).trans (W3_v28 m ρ c)

theorem W5_v28 : (W5 m ρ c (Proc.devRef .tc main_v28) : (⟨S100000x1, .f32⟩ : BufTy).Contents (Elt Ideal)) = KSpec.snorm (F := Ideal) (m ((c : Thread nD τ).loc main_arg1)) :=
  (StableHlo.after_of_forall_not_mem (b := Proc.devRef .tc main_v28) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_v28 m ρ c)

theorem W0_arg7 : W0 m ρ c (Proc.devRef .tc main_arg7) = m ((c : Thread nD τ).loc main_arg7) :=
  rfl

theorem W1_arg7 : W1 m ρ c (Proc.devRef .tc main_arg7) = m ((c : Thread nD τ).loc main_arg7) :=
  (StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg7 m ρ c)

theorem W2_arg7 : W2 m ρ c (Proc.devRef .tc main_arg7) = m ((c : Thread nD τ).loc main_arg7) :=
  (W2_of_ne m ρ c main_arg7 (by decide)).trans (W1_arg7 m ρ c)

theorem W3_arg7 : W3 m ρ c (Proc.devRef .tc main_arg7) = m ((c : Thread nD τ).loc main_arg7) :=
  (StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg7 m ρ c)

theorem W4_arg7 : W4 m ρ c (Proc.devRef .tc main_arg7) = m ((c : Thread nD τ).loc main_arg7) :=
  (W4_of_ne m ρ c main_arg7 (by decide)).trans (W3_arg7 m ρ c)

theorem W5_arg7 : W5 m ρ c (Proc.devRef .tc main_arg7) = m ((c : Thread nD τ).loc main_arg7) :=
  (StableHlo.after_of_forall_not_mem (b := Proc.devRef .tc main_arg7) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg7 m ρ c)

theorem W0_arg8 : W0 m ρ c (Proc.devRef .tc main_arg8) = m ((c : Thread nD τ).loc main_arg8) :=
  rfl

theorem W1_arg8 : W1 m ρ c (Proc.devRef .tc main_arg8) = m ((c : Thread nD τ).loc main_arg8) :=
  (StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg8 m ρ c)

theorem W2_arg8 : W2 m ρ c (Proc.devRef .tc main_arg8) = m ((c : Thread nD τ).loc main_arg8) :=
  (W2_of_ne m ρ c main_arg8 (by decide)).trans (W1_arg8 m ρ c)

theorem W3_arg8 : W3 m ρ c (Proc.devRef .tc main_arg8) = m ((c : Thread nD τ).loc main_arg8) :=
  (StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg8 m ρ c)

theorem W4_arg8 : W4 m ρ c (Proc.devRef .tc main_arg8) = m ((c : Thread nD τ).loc main_arg8) :=
  (W4_of_ne m ρ c main_arg8 (by decide)).trans (W3_arg8 m ρ c)

theorem W5_arg8 : W5 m ρ c (Proc.devRef .tc main_arg8) = m ((c : Thread nD τ).loc main_arg8) :=
  (StableHlo.after_of_forall_not_mem (b := Proc.devRef .tc main_arg8) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg8 m ρ c)

theorem W6_v67 : (W6 m ρ c (Proc.devRef .tc main_v67) : S100000x128.Idx → EReal) = (KSpec.layer (KSpec.layer (KSpec.layer (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg5)) (m ((c : Thread nD τ).loc main_arg6))) (m ((c : Thread nD τ).loc main_arg1)) (m ((c : Thread nD τ).loc main_arg7)) (m ((c : Thread nD τ).loc main_arg8))) := by
  refine (W6_arr m ρ c 5).trans ((KRegion.arr2 (V5 m ρ) c).trans ?_)
  show Cert.Spec.layerK (W5 m ρ c (Proc.devRef .tc main_v66)) (W5 m ρ c (Proc.devRef .tc main_v54)) (W5 m ρ c (Proc.devRef .tc main_v28)) (W5 m ρ c (Proc.devRef .tc main_arg7)) (W5 m ρ c (Proc.devRef .tc main_arg8)) = _
  rw [W5_v66 m ρ c, W5_v54 m ρ c, W5_v28 m ρ c, W5_arg7 m ρ c, W5_arg8 m ρ c]
  rfl

/-! ## The last stretch: per-graph sums of the third layer's rows, and the per-graph counts -/

theorem W0_arg2 : W0 m ρ c (Proc.devRef .tc main_arg2) = m ((c : Thread nD τ).loc main_arg2) :=
  rfl

theorem W1_arg2 : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg2 m ρ c)

theorem W2_arg2 : W2 m ρ c (Proc.devRef .tc main_arg2) = m ((c : Thread nD τ).loc main_arg2) :=
  (W2_of_ne m ρ c main_arg2 (by decide)).trans (W1_arg2 m ρ c)

theorem W3_arg2 : W3 m ρ c (Proc.devRef .tc main_arg2) = m ((c : Thread nD τ).loc main_arg2) :=
  (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg2 m ρ c)

theorem W4_arg2 : W4 m ρ c (Proc.devRef .tc main_arg2) = m ((c : Thread nD τ).loc main_arg2) :=
  (W4_of_ne m ρ c main_arg2 (by decide)).trans (W3_arg2 m ρ c)

theorem W5_arg2 : W5 m ρ c (Proc.devRef .tc main_arg2) = m ((c : Thread nD τ).loc main_arg2) :=
  (StableHlo.after_of_forall_not_mem (b := Proc.devRef .tc main_arg2) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg2 m ρ c)

theorem W6_arg2 : W6 m ρ c (Proc.devRef .tc main_arg2) = m ((c : Thread nD τ).loc main_arg2) :=
  (W6_of_ne m ρ c main_arg2 (by decide)).trans (W5_arg2 m ρ c)

theorem W7_v70 : (W7 m ρ c (Proc.devRef .tc main_v70) : (⟨S512x128, .f32⟩ : BufTy).Contents (Elt Ideal)) = KSpec.sums (F := Ideal) (KSpec.layer (KSpec.layer (KSpec.layer (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg5)) (m ((c : Thread nD τ).loc main_arg6))) (m ((c : Thread nD τ).loc main_arg1)) (m ((c : Thread nD τ).loc main_arg7)) (m ((c : Thread nD τ).loc main_arg8))) (m ((c : Thread nD τ).loc main_arg2)) := by
  refine (host3_v70 (W6 m ρ c)).trans ?_
  rw [W6_v67 m ρ c, W6_arg2 m ρ c]

theorem W7_v74 : (W7 m ρ c (Proc.devRef .tc main_v74) : (⟨S512x1, .f32⟩ : BufTy).Contents (Elt Ideal)) = KSpec.counts (F := Ideal) (m ((c : Thread nD τ).loc main_arg2)) := by
  refine (host3_v74 (W6 m ρ c)).trans ?_
  rw [W6_arg2 m ρ c]

theorem W0_arg9 : W0 m ρ c (Proc.devRef .tc main_arg9) = m ((c : Thread nD τ).loc main_arg9) :=
  rfl

theorem W1_arg9 : W1 m ρ c (Proc.devRef .tc main_arg9) = m ((c : Thread nD τ).loc main_arg9) :=
  (StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg9 m ρ c)

theorem W2_arg9 : W2 m ρ c (Proc.devRef .tc main_arg9) = m ((c : Thread nD τ).loc main_arg9) :=
  (W2_of_ne m ρ c main_arg9 (by decide)).trans (W1_arg9 m ρ c)

theorem W3_arg9 : W3 m ρ c (Proc.devRef .tc main_arg9) = m ((c : Thread nD τ).loc main_arg9) :=
  (StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg9 m ρ c)

theorem W4_arg9 : W4 m ρ c (Proc.devRef .tc main_arg9) = m ((c : Thread nD τ).loc main_arg9) :=
  (W4_of_ne m ρ c main_arg9 (by decide)).trans (W3_arg9 m ρ c)

theorem W5_arg9 : W5 m ρ c (Proc.devRef .tc main_arg9) = m ((c : Thread nD τ).loc main_arg9) :=
  (StableHlo.after_of_forall_not_mem (b := Proc.devRef .tc main_arg9) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg9 m ρ c)

theorem W6_arg9 : W6 m ρ c (Proc.devRef .tc main_arg9) = m ((c : Thread nD τ).loc main_arg9) :=
  (W6_of_ne m ρ c main_arg9 (by decide)).trans (W5_arg9 m ρ c)

theorem W7_arg9 : W7 m ρ c (Proc.devRef .tc main_arg9) = m ((c : Thread nD τ).loc main_arg9) :=
  (StableHlo.after_of_forall_not_mem (b := Proc.devRef .tc main_arg9) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_arg9 m ρ c)

theorem W0_arg10 : W0 m ρ c (Proc.devRef .tc main_arg10) = m ((c : Thread nD τ).loc main_arg10) :=
  rfl

theorem W1_arg10 : W1 m ρ c (Proc.devRef .tc main_arg10) = m ((c : Thread nD τ).loc main_arg10) :=
  (StableHlo.after_of_forall_not_mem (b := Proc.devRef .tc main_arg10) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W0_arg10 m ρ c)

theorem W2_arg10 : W2 m ρ c (Proc.devRef .tc main_arg10) = m ((c : Thread nD τ).loc main_arg10) :=
  (W2_of_ne m ρ c main_arg10 (by decide)).trans (W1_arg10 m ρ c)

theorem W3_arg10 : W3 m ρ c (Proc.devRef .tc main_arg10) = m ((c : Thread nD τ).loc main_arg10) :=
  (StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg10 m ρ c)

theorem W4_arg10 : W4 m ρ c (Proc.devRef .tc main_arg10) = m ((c : Thread nD τ).loc main_arg10) :=
  (W4_of_ne m ρ c main_arg10 (by decide)).trans (W3_arg10 m ρ c)

theorem W5_arg10 : W5 m ρ c (Proc.devRef .tc main_arg10) = m ((c : Thread nD τ).loc main_arg10) :=
  (StableHlo.after_of_forall_not_mem (b := Proc.devRef .tc main_arg10) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_arg10 m ρ c)

theorem W6_arg10 : W6 m ρ c (Proc.devRef .tc main_arg10) = m ((c : Thread nD τ).loc main_arg10) :=
  (W6_of_ne m ρ c main_arg10 (by decide)).trans (W5_arg10 m ρ c)

theorem W7_arg10 : W7 m ρ c (Proc.devRef .tc main_arg10) = m ((c : Thread nD τ).loc main_arg10) :=
  (StableHlo.after_of_forall_not_mem (b := Proc.devRef .tc main_arg10) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W6_arg10 m ρ c)

end Walk

/-- The result buffer's contents when the program returns, as the function KSpec.out of the launch contents of the
    eleven argument arrays. -/
theorem kernel_value (m : (ℓ : Loc nD τ sig) → Buf (Elt Ideal) ℓ) (ρ : Dev nD → PrngReg) (c : Dev nD) :
    (W8 (F := Ideal) m ρ c (Proc.devRef .tc main_v75) : S512x1.Idx → EReal)
      = KSpec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W8_arr m ρ c 4).trans ((KRegion.arr3 (V7 m ρ) c).trans ?_)
  show Cert.Spec.poolK (W7 m ρ c (Proc.devRef .tc main_v70)) (W7 m ρ c (Proc.devRef .tc main_v74)) (W7 m ρ c (Proc.devRef .tc main_arg9)) (W7 m ρ c (Proc.devRef .tc main_arg10)) = _
  rw [W7_v70 m ρ c, W7_v74 m ρ c, W7_arg9 m ρ c, W7_arg10 m ρ c]
  rfl

end Cert.KernelIdeal.KHost

end
-- ==== Proof.KRun.lean ====
/-
  The kernel program's run, with its result named.

  From any launch memory every weakly fair execution runs the four stretches of whole-array operations and the four
  dense stages in turn, and every buffer ends at the contents the last boundary of that fold gives it. The result
  buffer therefore ends at what the read-out stage leaves, which is KSpec.out of the launch contents of the eleven
  arguments (KHost.kernel_value); no stretch and no stage writes an argument, so each argument ends as launched.
-/
import proofs.«179693_j27702539059471_2_alg».proof.Proof.Gen.KernelIdeal.Frame
import proofs.«179693_j27702539059471_2_alg».proof.Proof.Spec
import proofs.«179693_j27702539059471_2_alg».proof.Proof.KSpec
import proofs.«179693_j27702539059471_2_alg».proof.Proof.KHost

noncomputable section

namespace Cert.KernelIdeal.KRun

open Cert.KernelIdeal Cert.KernelIdeal.Gen Idealize.ShloMosaic Idealize.ShloMosaic.TcCoe Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt Ideal) ℕ (UR sig nD τ) ℕ

set_option backward.isDefEq.respectTransparency.types false in
/-- Every weakly fair execution of the kernel program at the exact instance terminates without a fault, with the
    result buffer at KSpec.out of the launch contents of the arguments and every argument array unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v75) = KSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v75 (by decide))).trans (KHost.kernel_value m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.KRun

end
-- ==== Proof.LibIndexedRows.lean ====
/-
  Reading a row gather, an accumulating row scatter and a joined pair of flat arrays at one index.

  A table T has N rows and F columns; a list of E start indices, each a machine word read as a signed integer,
  names rows of it.

  Gather. The gathered array has one row per start index: its entry (e, f) is T (r, f), where r is the e-th start
  index clamped into [0, N - 1] (a negative index reads row 0, an index past the end reads the last row). The
  flat version (a table with N entries and no columns) is the same statement without f.

  Accumulating scatter. Update row e is added to the table's row whose number is the e-th start index; an index
  that is not a row number (negative, or N and above) adds nowhere. Row e keeps its columns: entry (e, q) of the
  updates lands on (n, f) exactly when the index is n and q = f. So entry (n, f) of the result is the table's
  entry plus the sum, over the updates e whose index is n, of the update's entry (e, f). The sum is over the
  extended reals, where addition is commutative and associative, so no finiteness is needed.

  Joining. Two flat arrays u (length a) and v (length b) joined end to end: position j < a reads u j, position
  a + k reads v k.
-/
import Idealize.ShloMosaic.PureOps.Ideal
import Idealize.ShloMosaic.Lib.ValueIdx
import Idealize.ShloMosaic.Lib.Pipeline.Value

noncomputable section

namespace Cert.Lib

open Idealize.ShloMosaic Idealize.ShloMosaic.ValueIdx

/-- Update rows [E, F] scattered into a table [N, F] through start indices [E, 1]: entry (e, q) of the updates
    lands on (n, f) exactly when its start index, read signed, is n and the column is kept, q = f. -/
theorem resultIdx_rows {N F E w : Nat} (d : ScatterDims ⟨2, ![N, F]⟩ ⟨2, ![E, 1]⟩ ⟨2, ![E, F]⟩)
    (h1 : d.updateWindowDims = [1]) (h2 : d.insertedWindowDims = [0]) (h3 : d.scatterDimsToOperandDims = [0])
    (h4 : d.indexVectorDim = 1) (idx : IVec ⟨2, ![E, 1]⟩ w) (e : Fin E) (q : Fin F) (n : Fin N) (f : Fin F) :
    d.resultIdx? (ix2 e q) idx = some (ix2 n f) ↔ (idx (ix2 e 0)).toInt = (n.val : Int) ∧ q = f := by
  obtain ⟨uw, iw, sd, iv, wf⟩ := d
  simp only at h1 h2 h3 h4
  subst h1 h2 h3 h4
  have hs0 : ScatterDims.start ⟨[1], [0], [0], 1, wf⟩ (ix2 e q) idx 0 = (idx (ix2 e 0)).toInt := by
    unfold ScatterDims.start
    rw [dif_pos (by simp)]
    congr 2
    funext b
    match b with
    | ⟨0, _⟩ => rfl
    | ⟨1, _⟩ => rfl
  have hs1 : ScatterDims.start ⟨[1], [0], [0], 1, wf⟩ (ix2 e q) idx 1 = 0 := by
    unfold ScatterDims.start
    rw [dif_neg (by simp)]
  have hw0 : ScatterDims.window ⟨[1], [0], [0], 1, wf⟩ (ix2 e q) 0 = 0 := by
    unfold ScatterDims.window
    rw [dif_neg (by simp [ScatterDims.sKept, Shape.kept])]
  have hw1 : ScatterDims.window ⟨[1], [0], [0], 1, wf⟩ (ix2 e q) 1 = q.val := by
    unfold ScatterDims.window
    rw [dif_pos (by simp [ScatterDims.sKept, Shape.kept])]
    rfl
  unfold ScatterDims.resultIdx?
  constructor
  · intro h
    split at h
    · rename_i hc
      have hc0 := hc 0
      rw [hs0, hw0] at hc0
      have e0 := congrArg Fin.val (congrFun (Option.some.inj h) 0)
      have e1 := congrArg Fin.val (congrFun (Option.some.inj h) 1)
      simp only [hs0, hw0] at e0
      simp only [hs1, hw1] at e1
      have hN : (n.val : Int) < (N : Int) := by exact_mod_cast n.isLt
      refine ⟨?_, Fin.ext ?_⟩
      · change ((idx (ix2 e 0)).toInt + ((0 : Nat) : Int)).toNat = n.val at e0
        change 0 ≤ (idx (ix2 e 0)).toInt + ((0 : Nat) : Int) ∧ _ at hc0
        omega
      · change ((0 : Int) + ((q.val : Nat) : Int)).toNat = f.val at e1
        omega
    · exact absurd h (by simp)
  · rintro ⟨h, rfl⟩
    refine (dif_pos ?_).trans ?_
    · intro a
      match a with
      | ⟨0, _⟩ =>
        have := n.isLt
        show 0 ≤ ScatterDims.start ⟨[1], [0], [0], 1, wf⟩ (ix2 e q) idx 0 + ((ScatterDims.window ⟨[1], [0], [0], 1, wf⟩ (ix2 e q) 0 : Nat) : Int)
          ∧ ScatterDims.start ⟨[1], [0], [0], 1, wf⟩ (ix2 e q) idx 0 + ((ScatterDims.window ⟨[1], [0], [0], 1, wf⟩ (ix2 e q) 0 : Nat) : Int) < (N : Int)
        rw [hs0, hw0]
        omega
      | ⟨1, _⟩ =>
        have := q.isLt
        show 0 ≤ ScatterDims.start ⟨[1], [0], [0], 1, wf⟩ (ix2 e q) idx 1 + ((ScatterDims.window ⟨[1], [0], [0], 1, wf⟩ (ix2 e q) 1 : Nat) : Int)
          ∧ ScatterDims.start ⟨[1], [0], [0], 1, wf⟩ (ix2 e q) idx 1 + ((ScatterDims.window ⟨[1], [0], [0], 1, wf⟩ (ix2 e q) 1 : Nat) : Int) < (F : Int)
        rw [hs1, hw1]
        omega
    · congr 1
      funext a
      match a with
      | ⟨0, _⟩ =>
        apply Fin.ext
        show (ScatterDims.start ⟨[1], [0], [0], 1, wf⟩ (ix2 e q) idx 0 + ((ScatterDims.window ⟨[1], [0], [0], 1, wf⟩ (ix2 e q) 0 : Nat) : Int)).toNat = n.val
        rw [hs0, hw0]
        omega
      | ⟨1, _⟩ =>
        apply Fin.ext
        show (ScatterDims.start ⟨[1], [0], [0], 1, wf⟩ (ix2 e q) idx 1 + ((ScatterDims.window ⟨[1], [0], [0], 1, wf⟩ (ix2 e q) 1 : Nat) : Int)).toNat = q.val
        rw [hs1, hw1]
        omega

/-- Entry (n, f) of an accumulating row scatter: the table's entry plus the sum, over the updates whose start
    index is n, of the update's entry in column f. -/
theorem hostScatterAdd_rows_apply {N F E w : Nat} (d : ScatterDims ⟨2, ![N, F]⟩ ⟨2, ![E, 1]⟩ ⟨2, ![E, F]⟩)
    (h1 : d.updateWindowDims = [1]) (h2 : d.insertedWindowDims = [0]) (h3 : d.scatterDimsToOperandDims = [0])
    (h4 : d.indexVectorDim = 1) (x : (⟨2, ![N, F]⟩ : Shape).Idx → EReal) (idx : IVec ⟨2, ![E, 1]⟩ w)
    (upd : (⟨2, ![E, F]⟩ : Shape).Idx → EReal) (n : Fin N) (f : Fin F) :
    Ideal.hostScatterAdd d x idx upd (ix2 n f)
      = x (ix2 n f) + ∑ e ∈ Finset.univ.filter (fun e : Fin E => (idx (ix2 e 0)).toInt = (n.val : Int)), upd (ix2 e f) := by
  unfold Ideal.hostScatterAdd
  congr 1
  have key : ∀ j : (⟨2, ![E, F]⟩ : Shape).Idx, d.resultIdx? j idx = some (ix2 n f) ↔
      (idx (ix2 (j 0 : Fin E) 0)).toInt = (n.val : Int) ∧ (j 1 : Fin F) = f := fun j => by
    conv_lhs => rw [eq_ix2 j]
    exact resultIdx_rows d h1 h2 h3 h4 idx _ _ n f
  refine Finset.sum_nbij' (fun j => (j 0 : Fin E)) (fun e => ix2 e f) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e f)).2 ⟨(Finset.mem_filter.1 he).2, rfl⟩⟩
  · intro j hj
    have hf := ((key j).1 (Finset.mem_filter.1 hj).2).2
    show ix2 (j 0 : Fin E) f = j
    rw [← hf]
    exact (eq_ix2 j).symm
  · intro e _
    rfl
  · intro j hj
    have hf := ((key j).1 (Finset.mem_filter.1 hj).2).2
    show upd j = upd (ix2 (j 0 : Fin E) f)
    rw [← hf]
    exact congrArg upd (eq_ix2 j)

/-- The row a start index selects: read signed, clamped into [0, N - 1]. -/
def clampRow (N : Nat) (hN : 0 < N) {w : Nat} (v : BitVec w) : Fin N := ⟨min v.toInt.toNat (N - 1), by omega⟩

/-- Entry (e, f) of a row gather: the table's entry in column f of the row the e-th start index selects. -/
theorem rowGather_apply {N F E w : Nat} (hN : 0 < N) {α : Type} (g : GatherDims ⟨2, ![N, F]⟩ ⟨2, ![E, 1]⟩ ⟨2, ![E, F]⟩)
    (h1 : g.offsetDims = [1]) (h2 : g.collapsedSliceDims = [0]) (h3 : g.operandBatchingDims = [])
    (h4 : g.startIndexMap = [0]) (h5 : g.indexVectorDim = 1) (h6 : g.sliceSizes = ![1, F])
    (T : (⟨2, ![N, F]⟩ : Shape).Idx → α) (idx : IVec ⟨2, ![E, 1]⟩ w) (e : Fin E) (f : Fin F) :
    Host.gather g T idx (ix2 e f) = T (ix2 (clampRow N hN (idx (ix2 e 0))) f) := by
  obtain ⟨od, cd, ob, sb, sm, iv, ss, wf⟩ := g
  simp only at h1 h2 h3 h4 h5 h6
  subst h1 h2 h3 h4 h5 h6
  unfold Host.gather
  congr 1
  funext a
  refine Fin.ext ?_
  match a with
  | ⟨0, _⟩ =>
    show GatherDims.start (⟨[1], [0], [], sb, [0], 1, ![1, F], wf⟩ : GatherDims ⟨2, ![N, F]⟩ ⟨2, ![E, 1]⟩ ⟨2, ![E, F]⟩) (ix2 e f) idx 0
      + GatherDims.batchCoord (⟨[1], [0], [], sb, [0], 1, ![1, F], wf⟩ : GatherDims ⟨2, ![N, F]⟩ ⟨2, ![E, 1]⟩ ⟨2, ![E, F]⟩) (ix2 e f) 0
      + GatherDims.offCoord (⟨[1], [0], [], sb, [0], 1, ![1, F], wf⟩ : GatherDims ⟨2, ![N, F]⟩ ⟨2, ![E, 1]⟩ ⟨2, ![E, F]⟩) (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], sb, [0], 1, ![1, F], wf⟩ : GatherDims ⟨2, ![N, F]⟩ ⟨2, ![E, 1]⟩ ⟨2, ![E, F]⟩) (ix2 e f)
        ⟨List.idxOf (0 : Fin 2) [0], List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show GatherDims.start (⟨[1], [0], [], sb, [0], 1, ![1, F], wf⟩ : GatherDims ⟨2, ![N, F]⟩ ⟨2, ![E, 1]⟩ ⟨2, ![E, F]⟩) (ix2 e f) idx 1
      + GatherDims.batchCoord (⟨[1], [0], [], sb, [0], 1, ![1, F], wf⟩ : GatherDims ⟨2, ![N, F]⟩ ⟨2, ![E, 1]⟩ ⟨2, ![E, F]⟩) (ix2 e f) 1
      + GatherDims.offCoord (⟨[1], [0], [], sb, [0], 1, ![1, F], wf⟩ : GatherDims ⟨2, ![N, F]⟩ ⟨2, ![E, 1]⟩ ⟨2, ![E, F]⟩) (ix2 e f) 1 = f.val
    rw [GatherDims.batchCoord_eq_zero _ _ _ List.not_mem_nil]
    unfold GatherDims.start
    rw [dif_neg (by simp)]
    unfold GatherDims.offCoord
    rw [dif_pos (by simp [GatherDims.sKept, Shape.kept])]
    simp only [Nat.zero_add, Nat.add_zero]
    rfl

/-- Entry e of a flat gather: the table's entry at the position the e-th start index selects. -/
theorem flatGather_apply {N E w : Nat} (hN : 0 < N) {α : Type} (g : GatherDims ⟨1, ![N]⟩ ⟨2, ![E, 1]⟩ ⟨1, ![E]⟩)
    (h1 : g.offsetDims = []) (h2 : g.collapsedSliceDims = [0]) (h3 : g.operandBatchingDims = [])
    (h4 : g.startIndexMap = [0]) (h5 : g.indexVectorDim = 1) (h6 : g.sliceSizes = ![1])
    (T : (⟨1, ![N]⟩ : Shape).Idx → α) (idx : IVec ⟨2, ![E, 1]⟩ w) (e : Fin E) :
    Host.gather g T idx (ix1 e) = T (ix1 (clampRow N hN (idx (ix2 e 0)))) := by
  obtain ⟨od, cd, ob, sb, sm, iv, ss, wf⟩ := g
  simp only at h1 h2 h3 h4 h5 h6
  subst h1 h2 h3 h4 h5 h6
  unfold Host.gather
  congr 1
  funext a
  obtain rfl : a = 0 := Subsingleton.elim _ _
  refine Fin.ext ?_
  show GatherDims.start (⟨[], [0], [], sb, [0], 1, ![1], wf⟩ : GatherDims ⟨1, ![N]⟩ ⟨2, ![E, 1]⟩ ⟨1, ![E]⟩) (ix1 e) idx 0
    + GatherDims.batchCoord (⟨[], [0], [], sb, [0], 1, ![1], wf⟩ : GatherDims ⟨1, ![N]⟩ ⟨2, ![E, 1]⟩ ⟨1, ![E]⟩) (ix1 e) 0
    + GatherDims.offCoord (⟨[], [0], [], sb, [0], 1, ![1], wf⟩ : GatherDims ⟨1, ![N]⟩ ⟨2, ![E, 1]⟩ ⟨1, ![E]⟩) (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : GatherDims.siIdx (⟨[], [0], [], sb, [0], 1, ![1], wf⟩ : GatherDims ⟨1, ![N]⟩ ⟨2, ![E, 1]⟩ ⟨1, ![E]⟩) (ix1 e)
      ⟨List.idxOf (0 : Fin 1) [0], List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- Two flat arrays joined end to end, read at a position j inside the first: the first array's entry j. -/
theorem concat1_apply_left {a b c : Nat} {α : Type} (u : (⟨1, ![a]⟩ : Shape).Idx → α) (v : (⟨1, ![b]⟩ : Shape).Idx → α)
    (h : Shape.Concatenates [⟨1, ![a]⟩, ⟨1, ![b]⟩] ⟨1, ![c]⟩ 0) (j : Fin c) (k : Fin a) (hk : j.val = k.val) :
    concatenate ⟨1, ![c]⟩ 0 [⟨⟨1, ![a]⟩, u⟩, ⟨⟨1, ![b]⟩, v⟩] h (ix1 j) = u (ix1 k) :=
  concatenate_pair_apply_left 0 u v h (ix1 j) rfl (ix1 k) fun ax => by
    match ax with
    | ⟨0, _⟩ => exact hk.symm

/-- … and read at position a + k, past the first array: the second array's entry k. -/
theorem concat1_apply_right {a b c : Nat} {α : Type} (u : (⟨1, ![a]⟩ : Shape).Idx → α) (v : (⟨1, ![b]⟩ : Shape).Idx → α)
    (h : Shape.Concatenates [⟨1, ![a]⟩, ⟨1, ![b]⟩] ⟨1, ![c]⟩ 0) (j : Fin c) (k : Fin b) (hk : j.val = a + k.val) :
    concatenate ⟨1, ![c]⟩ 0 [⟨⟨1, ![a]⟩, u⟩, ⟨⟨1, ![b]⟩, v⟩] h (ix1 j) = v (ix1 k) :=
  concatenate_pair_apply_right 0 u v h (ix1 j) rfl rfl (ix1 k)
    (fun ax hax => by
      match ax, hax with
      | ⟨0, _⟩, hax => exact absurd rfl hax)
    (by show k.val + a = j.val; omega)

end Cert.Lib

end
-- ==== Proof.Edges.lean ====
/-
  The aggregate of a feature array, read at one entry.

  Edge e arrives at node p when the destination row of the edge list, read as a signed integer, is p; an index
  that is not a node number arrives nowhere. The source node of edge e is its (once wrapped) source index clamped
  into the node range, the row a gather reads whatever the index holds. Entry (p, k) of the aggregate of h is then
      0 + sum over the edges e arriving at p of  h(source e, k) * weight(e).
-/
import proofs.«179693_j27702539059471_2_alg».proof.Proof.KSpec
import proofs.«179693_j27702539059471_2_alg».proof.Proof.LibIndexedRows
import Idealize.ShloMosaic.Lib.Pipeline.Value
import Idealize.ShloMosaic.PureOps.Ideal.Laws

noncomputable section

namespace Cert.KernelIdeal.Edges

open Cert.KernelIdeal Cert.KernelIdeal.Gen Idealize.ShloMosaic Idealize.ShloMosaic.ValueIdx

/-- The edge list: two rows of 1600000 indices. -/
abbrev EdgeList := (⟨S2x1600000, .i32⟩ : BufTy).Contents (Elt Ideal)

/-- The updates of a row scatter that land on row n: those whose start index, read signed, is n. -/
def landing {E N w : Nat} (idx : IVec ⟨2, ![E, 1]⟩ w) (n : Fin N) : Finset (Fin E) :=
  Finset.univ.filter fun e : Fin E => (idx (ix2 e 0)).toInt = (n.val : Int)

/-- Entry (n, f) of an accumulating row scatter: the table's entry plus the sum of the landing updates' entries. -/
theorem scatter_rows {N F E w : Nat} (d : ScatterDims ⟨2, ![N, F]⟩ ⟨2, ![E, 1]⟩ ⟨2, ![E, F]⟩)
    (h1 : d.updateWindowDims = [1]) (h2 : d.insertedWindowDims = [0]) (h3 : d.scatterDimsToOperandDims = [0])
    (h4 : d.indexVectorDim = 1) (x : (⟨2, ![N, F]⟩ : Shape).Idx → EReal) (idx : IVec ⟨2, ![E, 1]⟩ w)
    (upd : (⟨2, ![E, F]⟩ : Shape).Idx → EReal) (n : Fin N) (f : Fin F) :
    Ideal.hostScatterAdd d x idx upd (ix2 n f) = x (ix2 n f) + ∑ e ∈ landing idx n, upd (ix2 e f) :=
  Cert.Lib.hostScatterAdd_rows_apply d h1 h2 h3 h4 x idx upd n f

/-- Over the extended reals the accumulating scatter is the exact sum of the colliding updates. -/
theorem scatterAdd_eq {s si u : Shape} {φ : FTy} {w : Nat} (d : ScatterDims s si u) (x : FVec Ideal s φ) (idx : IVec si w)
    (upd : FVec Ideal u φ) : Host.scatterAdd d x idx upd = Ideal.hostScatterAdd d x idx upd := rfl

/-- An entrywise product read at an index. -/
theorem mulf_apply {s : Shape} {φ : FTy} (x y : FVec Ideal s φ) (i : s.Idx) : mulf x y i = x i * y i := rfl

/-- The edges arriving at node p. -/
def arriving (x1 : EdgeList) (p : Fin 100000) : Finset (Fin 1600000) :=
  landing (KSpec.col (F := Ideal) (KSpec.dstRow x1)) p

/-- The node whose row edge e carries. -/
def source (x1 : EdgeList) (e : Fin 1600000) : Fin 100000 :=
  Cert.Lib.clampRow 100000 (by decide) ((KSpec.col (F := Ideal) (KSpec.wrapIdx (KSpec.srcRow x1))) (ix2 e 0))

/-- The array of zeros the aggregate starts from. -/
theorem zeros_apply (i : S100000x128.Idx) :
    (broadcastInDim S100000x128 ![] bcast_S_S100000x128 (constant (F := Ideal) S_ .f32 0x00000000#32) : S100000x128.Idx → EReal) i = 0 := by
  rw [broadcastInDim_apply _ bcast_S_S100000x128 _ i (fun a => a.elim0) (fun a => a.elim0)]
  exact Ideal.ofBits_zero_f32

/-- A column of per-edge numbers spread over the 128 features reads its row's one entry. -/
theorem spread_apply (en : S1600000x1.Idx → EReal) (e : Fin 1600000) (k : Fin 128) :
    (broadcastInDim S1600000x128 ![0, 1] bcast_S1600000x1_S1600000x128_0_1 en : S1600000x128.Idx → EReal) (ix2 e k) = en (ix2 e 0) :=
  broadcastInDim_apply _ bcast_S1600000x1_S1600000x128_0_1 en (ix2 e k) (ix2 e 0) (fun a => match a with
    | ⟨0, _⟩ => by show e.val = if (1600000 : Nat) = 1 then 0 else e.val; rw [if_neg (by decide)]
    | ⟨1, _⟩ => by show 0 = if (1 : Nat) = 1 then 0 else k.val; rw [if_pos rfl])

/-- Entry (p, k) of the aggregate: zero plus the sum over the arriving edges of the carried row's entry times the
    edge's weight. -/
theorem agg_apply (h : S100000x128.Idx → EReal) (x1 : EdgeList) (p : Fin 100000) (k : Fin 128) :
    KSpec.agg (F := Ideal) h x1 (ix2 p k)
      = 0 + ∑ e ∈ arriving x1 p, h (ix2 (source x1 e) k) * KSpec.enorm (F := Ideal) x1 (ix2 e 0) := by
  unfold KSpec.agg arriving source
  generalize KSpec.col (F := Ideal) (KSpec.dstRow x1) = D
  generalize KSpec.col (F := Ideal) (KSpec.wrapIdx (KSpec.srcRow x1)) = Sx
  generalize KSpec.enorm (F := Ideal) x1 = en
  rw [scatterAdd_eq]
  refine (scatter_rows (N := 100000) (F := 128) (E := 1600000) scatter_S100000x128_S1600000x1_S1600000x128_1_0_0_1
    rfl rfl rfl rfl _ D _ p k).trans ?_
  rw [zeros_apply]
  refine congrArg (0 + ·) (Finset.sum_congr rfl fun e _ => ?_)
  rw [mulf_apply, spread_apply]
  exact congrArg (· * en (ix2 e 0)) (Cert.Lib.rowGather_apply (N := 100000) (F := 128) (E := 1600000) (by decide)
    gather_S100000x128_S1600000x1_S1600000x128_1_0_n_n_0_1_1128 rfl rfl rfl rfl rfl rfl h Sx e k)

end Cert.KernelIdeal.Edges

end
-- ==== Proof.RSpec.lean ====
/-
  The reference program's result in layers.

  The reference transforms first and aggregates afterwards: with t = h · W (a plain matrix product),
      layer h = max( (aggregate of t over the edges  +  t * self-loop weight)  +  bias row , 0 ),
  the aggregate, the edge weights and the self-loop weights being the same whole-array operations on the edge
  list that the kernel program applies (KSpec.agg, KSpec.snorm). After three layers the rows are summed per graph,
  divided by the per-graph node count clipped below at one, multiplied by the read-out column, and the read-out
  bias is added. Each of these is, word for word, the composed term the reference's run ends at.
-/
import proofs.«179693_j27702539059471_2_alg».proof.Proof.KSpec
import proofs.«179693_j27702539059471_2_alg».proof.Proof.Gen.ReferenceIdeal.Read

noncomputable section

namespace Cert.ReferenceIdeal.RSpec

open Cert.ReferenceIdeal Cert.ReferenceIdeal.Gen Idealize.ShloMosaic

variable {F : FTy → Type} [FloatOps F]

/-- The plain product of node features with a weight matrix. -/
def dense (h : (⟨S100000x128, .f32⟩ : BufTy).Contents (Elt F)) (W : (⟨S128x128, .f32⟩ : BufTy).Contents (Elt F)) :
    (⟨S100000x128, .f32⟩ : BufTy).Contents (Elt F) :=
  Host.dotGeneral dot_S100000x128_S128x128_S100000x128_1_0_0_1_n_n none h W

/-- One layer of the reference: transform, aggregate, add the self-loop share and the bias, clip below at zero. -/
def layer (h : (⟨S100000x128, .f32⟩ : BufTy).Contents (Elt F)) (x1 : (⟨S2x1600000, .i32⟩ : BufTy).Contents (Elt F))
    (W : (⟨S128x128, .f32⟩ : BufTy).Contents (Elt F)) (b : (⟨S128, .f32⟩ : BufTy).Contents (Elt F)) :
    (⟨S100000x128, .f32⟩ : BufTy).Contents (Elt F) :=
  maximumf
    (addf
      (addf (Cert.KernelIdeal.KSpec.agg (F := F) (dense h W) x1)
        (mulf (dense h W) (broadcastInDim S100000x128 ![0, 1] bcast_S100000x1_S100000x128_0_1 (Cert.KernelIdeal.KSpec.snorm (F := F) x1))))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The read-out of the reference: per-graph means, times the read-out column, plus the read-out bias. -/
def pool (h : (⟨S100000x128, .f32⟩ : BufTy).Contents (Elt F)) (x2 : (⟨S100000, .i32⟩ : BufTy).Contents (Elt F))
    (x9 : (⟨S128x1, .f32⟩ : BufTy).Contents (Elt F)) (x10 : (⟨S1, .f32⟩ : BufTy).Contents (Elt F)) :
    (⟨S512x1, .f32⟩ : BufTy).Contents (Elt F) :=
  addf
    (Host.dotGeneral dot_S512x128_S128x1_S512x1_1_0_0_1_n_n none
      (Host.divf (Cert.KernelIdeal.KSpec.sums (F := F) h x2)
        (broadcastInDim S512x128 ![0, 1] bcast_S512x1_S512x128_0_1
          (maximumf (Cert.KernelIdeal.KSpec.counts (F := F) x2)
            (broadcastInDim S512x1 ![] bcast_S_S512x1 (constant S_ .f32 0x3F800000#32)))))
      x9)
    (broadcastInDim S512x1 ![0, 1] bcast_S1x1_S512x1_0_1 (broadcastInDim S1x1 ![1] bcast_S1_S1x1_1 x10))

/-- The reference program's result. -/
def out (x0 : (⟨S100000x128, .f32⟩ : BufTy).Contents (Elt F)) (x1 : (⟨S2x1600000, .i32⟩ : BufTy).Contents (Elt F))
    (x2 : (⟨S100000, .i32⟩ : BufTy).Contents (Elt F)) (x3 : (⟨S128x128, .f32⟩ : BufTy).Contents (Elt F))
    (x4 : (⟨S128, .f32⟩ : BufTy).Contents (Elt F)) (x5 : (⟨S128x128, .f32⟩ : BufTy).Contents (Elt F))
    (x6 : (⟨S128, .f32⟩ : BufTy).Contents (Elt F)) (x7 : (⟨S128x128, .f32⟩ : BufTy).Contents (Elt F))
    (x8 : (⟨S128, .f32⟩ : BufTy).Contents (Elt F)) (x9 : (⟨S128x1, .f32⟩ : BufTy).Contents (Elt F))
    (x10 : (⟨S1, .f32⟩ : BufTy).Contents (Elt F)) : (⟨S512x1, .f32⟩ : BufTy).Contents (Elt F) :=
  pool (layer (layer (layer x0 x1 x3 x4) x1 x5 x6) x1 x7 x8) x2 x9 x10

/-- The first layer is the term the reference's run reaches after its first clip at zero. -/
theorem layer1_eq (x0 : (⟨S100000x128, .f32⟩ : BufTy).Contents (Elt F)) (x1 : (⟨S2x1600000, .i32⟩ : BufTy).Contents (Elt F))
    (x3 : (⟨S128x128, .f32⟩ : BufTy).Contents (Elt F)) (x4 : (⟨S128, .f32⟩ : BufTy).Contents (Elt F)) :
    Read.val_main_v48 (F := F) x0 x1 x3 x4 = layer x0 x1 x3 x4 := rfl

/-- The whole result is the term the reference's run ends at. -/
theorem out_eq (x0 : (⟨S100000x128, .f32⟩ : BufTy).Contents (Elt F)) (x1 : (⟨S2x1600000, .i32⟩ : BufTy).Contents (Elt F))
    (x2 : (⟨S100000, .i32⟩ : BufTy).Contents (Elt F)) (x3 : (⟨S128x128, .f32⟩ : BufTy).Contents (Elt F))
    (x4 : (⟨S128, .f32⟩ : BufTy).Contents (Elt F)) (x5 : (⟨S128x128, .f32⟩ : BufTy).Contents (Elt F))
    (x6 : (⟨S128, .f32⟩ : BufTy).Contents (Elt F)) (x7 : (⟨S128x128, .f32⟩ : BufTy).Contents (Elt F))
    (x8 : (⟨S128, .f32⟩ : BufTy).Contents (Elt F)) (x9 : (⟨S128x1, .f32⟩ : BufTy).Contents (Elt F))
    (x10 : (⟨S1, .f32⟩ : BufTy).Contents (Elt F)) :
    Read.val_main_v103 (F := F) x0 x1 x2 x3 x4 x5 x6 x7 x8 x9 x10 = out x0 x1 x2 x3 x4 x5 x6 x7 x8 x9 x10 := rfl

end Cert.ReferenceIdeal.RSpec

end
-- ==== Proof.LibAggregateTransform.lean ====
/-
  The one algebraic law of the certificate: aggregating before or after a linear map gives the same rows.

  Fix a node. Over a finite set T of arriving edges, edge e brings a feature row A e (the features of its source
  node) with a weight en e; the node's own row is hr with weight sn; W is one column of the weight matrix.
  Transforming the aggregated row,
      sum over k of ((0 + sum over e in T of A e k * en e) + hr k * sn) * W k,
  equals aggregating the transformed rows,
      (0 + sum over e in T of (sum over k of A e k * W k) * en e) + (sum over k of hr k * W k) * sn,
  because multiplication distributes over finite sums and the two sums may be exchanged. On the extended reals
  distributivity fails at the infinities, so the law is stated for entries that are real numbers; it is proved on
  the reals and carried back through the coercion.
-/
import Mathlib.Data.EReal.Basic
import Mathlib.Data.EReal.Operations
import Mathlib.Algebra.BigOperators.Ring.Finset
import Mathlib.Algebra.BigOperators.Group.Finset.Sigma
import Mathlib.Tactic.Ring

namespace Cert.Lib

/-- The coercion from the reals commutes with a finite sum. -/
theorem coe_finsum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law on the reals. -/
theorem agg_transform_real {ε κ : Type*} [Fintype κ] (T : Finset ε) (A : ε → κ → ℝ) (en : ε → ℝ) (hr : κ → ℝ) (sn : ℝ)
    (W : κ → ℝ) :
    ∑ k, ((∑ e ∈ T, A e k * en e) + hr k * sn) * W k
      = (∑ e ∈ T, (∑ k, A e k * W k) * en e) + (∑ k, hr k * W k) * sn := by
  simp only [add_mul, Finset.sum_add_distrib, Finset.sum_mul]
  congr 1
  · rw [Finset.sum_comm]
    exact Finset.sum_congr rfl fun e _ => Finset.sum_congr rfl fun k _ => by ring
  · exact Finset.sum_congr rfl fun k _ => by ring

/-- The law on extended reals whose entries are real numbers; the common value is a real number. -/
theorem agg_transform {ε κ : Type*} [Fintype κ] (T : Finset ε) (A : ε → κ → EReal) (en : ε → EReal) (hr : κ → EReal)
    (sn : EReal) (W : κ → EReal)
    (hA : ∀ e k, ∃ r : ℝ, A e k = (r : EReal)) (hen : ∀ e, ∃ r : ℝ, en e = (r : EReal))
    (hhr : ∀ k, ∃ r : ℝ, hr k = (r : EReal)) (hsn : ∃ r : ℝ, sn = (r : EReal)) (hW : ∀ k, ∃ r : ℝ, W k = (r : EReal)) :
    (∑ k, ((0 + ∑ e ∈ T, A e k * en e) + hr k * sn) * W k
      = (0 + ∑ e ∈ T, (∑ k, A e k * W k) * en e) + (∑ k, hr k * W k) * sn)
    ∧ ∃ r : ℝ, (∑ k, ((0 + ∑ e ∈ T, A e k * en e) + hr k * sn) * W k) = (r : EReal) := by
  classical
  choose A' hA' using hA
  choose en' hen' using hen
  choose hr' hhr' using hhr
  obtain ⟨sn', rfl⟩ := hsn
  choose W' hW' using hW
  have hl : (∑ k, ((0 + ∑ e ∈ T, A e k * en e) + hr k * (sn' : EReal)) * W k)
      = ((∑ k, ((∑ e ∈ T, A' e k * en' e) + hr' k * sn') * W' k : ℝ) : EReal) := by
    rw [coe_finsum]
    refine Finset.sum_congr rfl fun k _ => ?_
    rw [EReal.coe_mul, EReal.coe_add, EReal.coe_mul, coe_finsum, zero_add, hhr' k, hW' k]
    congr 2
    exact Finset.sum_congr rfl fun e _ => by rw [hA' e k, hen' e, EReal.coe_mul]
  have hr_ : ((0 + ∑ e ∈ T, (∑ k, A e k * W k) * en e) + (∑ k, hr k * W k) * (sn' : EReal))
      = (((∑ e ∈ T, (∑ k, A' e k * W' k) * en' e) + (∑ k, hr' k * W' k) * sn' : ℝ) : EReal) := by
    rw [EReal.coe_add, EReal.coe_mul, coe_finsum, coe_finsum, zero_add]
    congr 1
    · refine Finset.sum_congr rfl fun e _ => ?_
      rw [EReal.coe_mul, coe_finsum, hen' e]
      congr 1
      exact Finset.sum_congr rfl fun k _ => by rw [hA' e k, hW' k, EReal.coe_mul]
    · congr 1
      exact Finset.sum_congr rfl fun k _ => by rw [hhr' k, hW' k, EReal.coe_mul]
  refine ⟨?_, _, hl⟩
  rw [hl, hr_, agg_transform_real]

/-- The larger of a real number and zero is a real number. -/
theorem max_zero_coe (x : ℝ) : max (x : EReal) 0 = ((max x 0 : ℝ) : EReal) := by
  rw [← EReal.coe_zero]
  exact (EReal.coe_strictMono.monotone.map_max).symm

end Cert.Lib
-- ==== Proof.LibSegmentCount.lean ====
/-
  An accumulating scatter along the rows, read at one slot, over the extended reals.

  The scatter has one start index per update e, a row number read as a signed integer; update e lands on row n
  exactly when that integer is n, and an index outside the rows lands nowhere. So slot n of the result is the
  operand's slot plus the sum of the updates whose start index is n. This is stated for the two layouts a
  segment sum is written in: flat updates [E] into [N], and one-column updates [E, 1] into [N, 1]. Scattering
  ones into zeros therefore gives, in either layout, the number of updates whose index is n: a natural number,
  so a real one. Last, for a natural k, a · (1 / max(k, 1)) = a / max(k, 1) for every extended real a, infinite
  ones included: the divisor is a nonzero real, and dividing by it is multiplying by its inverse.
-/
import Idealize.ShloMosaic.PureOps.Ideal
import Idealize.ShloMosaic.Lib.ValueIdx

noncomputable section

namespace Cert.Lib

open Idealize.ShloMosaic Idealize.ShloMosaic.ValueIdx

variable {N E w : Nat}

/-- A window of one row starting at the signed integer z lies inside N rows exactly when z is a row number. -/
private theorem row_window_iff (z : Int) (n : Fin N)
    (h : 0 ≤ z + ((0 : Nat) : Int) ∧ z + ((0 : Nat) : Int) < (N : Int)) :
    (z + ((0 : Nat) : Int)).toNat = n.val ↔ z = (n.val : Int) := by
  omega

/-- Flat updates [E] scattered into [N] through start indices [E, 1]: update e lands on slot n exactly when its
    start index, read signed, is n. -/
theorem resultIdx_flat (d : ScatterDims ⟨1, ![N]⟩ ⟨2, ![E, 1]⟩ ⟨1, ![E]⟩) (h1 : d.updateWindowDims = [])
    (h2 : d.insertedWindowDims = [0]) (h3 : d.scatterDimsToOperandDims = [0]) (h4 : d.indexVectorDim = 1)
    (idx : IVec ⟨2, ![E, 1]⟩ w) (e : Fin E) (n : Fin N) :
    d.resultIdx? (ix1 e) idx = some (ix1 n) ↔ (idx (ix2 e 0)).toInt = (n.val : Int) := by
  obtain ⟨uw, iw, sd, iv, wf⟩ := d
  simp only at h1 h2 h3 h4
  subst h1 h2 h3 h4
  have hs : ∀ a, ScatterDims.start ⟨[], [0], [0], 1, wf⟩ (ix1 e) idx a = (idx (ix2 e 0)).toInt := by
    intro a
    have ha : a = 0 := Subsingleton.elim _ _
    subst ha
    unfold ScatterDims.start
    rw [dif_pos (by simp)]
    congr 2
    funext b
    match b with
    | ⟨0, _⟩ => rfl
    | ⟨1, _⟩ => rfl
  have hw : ∀ a, ScatterDims.window ⟨[], [0], [0], 1, wf⟩ (ix1 e) a = 0 := by
    intro a
    have ha : a = 0 := Subsingleton.elim _ _
    subst ha
    unfold ScatterDims.window
    rw [dif_neg (by simp [ScatterDims.sKept, Shape.kept])]
  unfold ScatterDims.resultIdx?
  simp only [hs, hw]
  constructor
  · intro h
    split at h
    · rename_i hc
      have h0 := congrArg Fin.val (congrFun (Option.some.inj h) 0)
      exact (row_window_iff _ n (hc 0)).1 h0
    · exact absurd h (by simp)
  · intro h
    have hc : ∀ a : Fin 1, 0 ≤ (idx (ix2 e 0)).toInt + ((0 : Nat) : Int) ∧ (idx (ix2 e 0)).toInt + ((0 : Nat) : Int) < ((![N] a : Nat) : Int) := by
      intro a
      have ha : a = 0 := Subsingleton.elim _ _
      subst ha
      have := n.isLt
      show 0 ≤ (idx (ix2 e 0)).toInt + ((0 : Nat) : Int) ∧ (idx (ix2 e 0)).toInt + ((0 : Nat) : Int) < (N : Int)
      omega
    rw [dif_pos hc]
    congr 1
    funext a
    have ha : a = 0 := Subsingleton.elim _ _
    subst ha
    exact Fin.ext ((row_window_iff _ n (hc 0)).2 h)

/-- One-column updates [E, 1] scattered into [N, 1] through start indices [E, 1]: update (e, 0) lands on slot
    (n, 0) exactly when its start index, read signed, is n. -/
theorem resultIdx_col (d : ScatterDims ⟨2, ![N, 1]⟩ ⟨2, ![E, 1]⟩ ⟨2, ![E, 1]⟩) (h1 : d.updateWindowDims = [1])
    (h2 : d.insertedWindowDims = [0]) (h3 : d.scatterDimsToOperandDims = [0]) (h4 : d.indexVectorDim = 1)
    (idx : IVec ⟨2, ![E, 1]⟩ w) (e : Fin E) (q : Fin 1) (n : Fin N) (r : Fin 1) :
    d.resultIdx? (ix2 e q) idx = some (ix2 n r) ↔ (idx (ix2 e 0)).toInt = (n.val : Int) := by
  obtain ⟨uw, iw, sd, iv, wf⟩ := d
  simp only at h1 h2 h3 h4
  subst h1 h2 h3 h4
  have hq : q = 0 := Subsingleton.elim _ _
  have hr : r.val = 0 := by have := r.isLt; omega
  subst hq
  have hs : ∀ a : Fin 2, ScatterDims.start ⟨[1], [0], [0], 1, wf⟩ (ix2 e 0) idx a
      = if a.val = 0 then (idx (ix2 e 0)).toInt else 0 := by
    intro a
    unfold ScatterDims.start
    match a with
    | ⟨0, _⟩ =>
      rw [dif_pos (by simp)]
      show (idx _).toInt = (idx (ix2 e 0)).toInt
      congr 2
      funext b
      match b with
      | ⟨0, _⟩ => rfl
      | ⟨1, _⟩ => rfl
    | ⟨1, _⟩ =>
      rw [dif_neg (by simp)]
      rfl
  have hw : ∀ a : Fin 2, ScatterDims.window ⟨[1], [0], [0], 1, wf⟩ (ix2 e (0 : Fin 1)) a = 0 := by
    intro a
    unfold ScatterDims.window
    match a with
    | ⟨0, _⟩ => rw [dif_neg (by simp [ScatterDims.sKept, Shape.kept])]
    | ⟨1, _⟩ => rw [dif_pos (by simp [ScatterDims.sKept, Shape.kept])]; rfl
  unfold ScatterDims.resultIdx?
  simp only [hs, hw]
  constructor
  · intro h
    split at h
    · rename_i hc
      have h0 := congrArg Fin.val (congrFun (Option.some.inj h) 0)
      exact (row_window_iff _ n (hc 0)).1 h0
    · exact absurd h (by simp)
  · intro h
    refine (dif_pos ?_).trans ?_
    · intro a
      match a with
      | ⟨0, _⟩ =>
        have := n.isLt
        show 0 ≤ (idx (ix2 e 0)).toInt + ((0 : Nat) : Int) ∧ (idx (ix2 e 0)).toInt + ((0 : Nat) : Int) < (N : Int)
        omega
      | ⟨1, _⟩ =>
        show 0 ≤ (0 : Int) + ((0 : Nat) : Int) ∧ (0 : Int) + ((0 : Nat) : Int) < ((1 : Nat) : Int)
        omega
    · congr 1
      funext a
      match a with
      | ⟨0, _⟩ =>
        apply Fin.ext
        show ((idx (ix2 e 0)).toInt + ((0 : Nat) : Int)).toNat = n.val
        omega
      | ⟨1, _⟩ =>
        apply Fin.ext
        show ((0 : Int) + ((0 : Nat) : Int)).toNat = r.val
        omega

/-- Slot n of a flat accumulating scatter: the operand's slot plus the sum of the updates whose index is n. -/
theorem hostScatterAdd_flat_apply (d : ScatterDims ⟨1, ![N]⟩ ⟨2, ![E, 1]⟩ ⟨1, ![E]⟩) (h1 : d.updateWindowDims = [])
    (h2 : d.insertedWindowDims = [0]) (h3 : d.scatterDimsToOperandDims = [0]) (h4 : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n)
      = x (ix1 n) + ∑ e ∈ Finset.univ.filter (fun e : Fin E => (idx (ix2 e 0)).toInt = (n.val : Int)), upd (ix1 e) := by
  unfold Ideal.hostScatterAdd
  congr 1
  refine Finset.sum_nbij' (fun j => (j 0 : Fin E)) (fun e => ix1 e) ?_ ?_ ?_ ?_ ?_
  · intro j hj
    have h := (Finset.mem_filter.1 hj).2
    rw [eq_ix1 j] at h
    exact Finset.mem_filter.2 ⟨Finset.mem_univ _, (resultIdx_flat d h1 h2 h3 h4 idx _ n).1 h⟩
  · intro e he
    exact Finset.mem_filter.2 ⟨Finset.mem_univ _,
      (resultIdx_flat d h1 h2 h3 h4 idx e n).2 (Finset.mem_filter.1 he).2⟩
  · intro j _
    exact (eq_ix1 j).symm
  · intro e _
    rfl
  · intro j _
    exact congrArg upd (eq_ix1 j)

/-- Slot (n, 0) of a one-column accumulating scatter: the operand's slot plus the sum of the updates whose index
    is n. -/
theorem hostScatterAdd_col_apply (d : ScatterDims ⟨2, ![N, 1]⟩ ⟨2, ![E, 1]⟩ ⟨2, ![E, 1]⟩)
    (h1 : d.updateWindowDims = [1]) (h2 : d.insertedWindowDims = [0]) (h3 : d.scatterDimsToOperandDims = [0])
    (h4 : d.indexVectorDim = 1) (x : (⟨2, ![N, 1]⟩ : Shape).Idx → EReal) (idx : IVec ⟨2, ![E, 1]⟩ w)
    (upd : (⟨2, ![E, 1]⟩ : Shape).Idx → EReal) (n : Fin N) (r : Fin 1) :
    Ideal.hostScatterAdd d x idx upd (ix2 n r)
      = x (ix2 n r) + ∑ e ∈ Finset.univ.filter (fun e : Fin E => (idx (ix2 e 0)).toInt = (n.val : Int)), upd (ix2 e 0) := by
  unfold Ideal.hostScatterAdd
  congr 1
  have hj1 : ∀ j : (⟨2, ![E, 1]⟩ : Shape).Idx, j = ix2 (j 0 : Fin E) (0 : Fin 1) := fun j => by
    funext a
    match a with
    | ⟨0, _⟩ => rfl
    | ⟨1, _⟩ => exact Fin.ext (by have := idx2_lt1 j; show (j 1).val = 0; omega)
  refine Finset.sum_nbij' (fun j => (j 0 : Fin E)) (fun e => ix2 e (0 : Fin 1)) ?_ ?_ ?_ ?_ ?_
  · intro j hj
    have h := (Finset.mem_filter.1 hj).2
    rw [hj1 j] at h
    exact Finset.mem_filter.2 ⟨Finset.mem_univ _, (resultIdx_col d h1 h2 h3 h4 idx _ 0 n r).1 h⟩
  · intro e he
    exact Finset.mem_filter.2 ⟨Finset.mem_univ _,
      (resultIdx_col d h1 h2 h3 h4 idx e 0 n r).2 (Finset.mem_filter.1 he).2⟩
  · intro j _
    exact (hj1 j).symm
  · intro e _
    rfl
  · intro j _
    exact congrArg upd (hj1 j)

/-- The number of updates whose start index, read signed, is the row n. -/
def landCount (idx : IVec ⟨2, ![E, 1]⟩ w) (n : Fin N) : Nat :=
  (Finset.univ.filter (fun e : Fin E => (idx (ix2 e 0)).toInt = (n.val : Int))).card

/-- A sum of ones over a finite set is the set's size, a real number. -/
theorem sum_ones_coe {ι : Type*} (s : Finset ι) : ∑ _e ∈ s, (1 : EReal) = ((s.card : ℝ) : EReal) := by
  classical
  induction s using Finset.induction_on with
  | empty => simp
  | insert a s ha ih =>
    rw [Finset.sum_insert ha, ih, Finset.card_insert_of_notMem ha, Nat.cast_add, Nat.cast_one, EReal.coe_add,
      EReal.coe_one, add_comm]

/-- Ones scattered into zeros, flat layout: slot n counts the updates whose index is n. -/
theorem scatter_ones_flat (d : ScatterDims ⟨1, ![N]⟩ ⟨2, ![E, 1]⟩ ⟨1, ![E]⟩) (h1 : d.updateWindowDims = [])
    (h2 : d.insertedWindowDims = [0]) (h3 : d.scatterDimsToOperandDims = [0]) (h4 : d.indexVectorDim = 1)
    (idx : IVec ⟨2, ![E, 1]⟩ w) (n : Fin N) :
    Ideal.hostScatterAdd d (fun _ => 0) idx (fun _ => 1) (ix1 n) = ((landCount idx n : ℝ) : EReal) := by
  rw [hostScatterAdd_flat_apply d h1 h2 h3 h4, zero_add, sum_ones_coe]; rfl

/-- Ones scattered into zeros, one-column layout: slot (n, 0) counts the updates whose index is n. -/
theorem scatter_ones_col (d : ScatterDims ⟨2, ![N, 1]⟩ ⟨2, ![E, 1]⟩ ⟨2, ![E, 1]⟩) (h1 : d.updateWindowDims = [1])
    (h2 : d.insertedWindowDims = [0]) (h3 : d.scatterDimsToOperandDims = [0]) (h4 : d.indexVectorDim = 1)
    (idx : IVec ⟨2, ![E, 1]⟩ w) (n : Fin N) (r : Fin 1) :
    Ideal.hostScatterAdd d (fun _ => 0) idx (fun _ => 1) (ix2 n r) = ((landCount idx n : ℝ) : EReal) := by
  rw [hostScatterAdd_col_apply d h1 h2 h3 h4, zero_add, sum_ones_coe]; rfl

/-- For a natural k, a · (1 / max(k, 1)) = a / max(k, 1) on every extended real a: the divisor is a real number
    that is at least one. -/
theorem mul_inv_max_count (a : EReal) (k : Nat) :
    a * Ideal.div 1 (max (((k : ℝ) : EReal)) 1) = Ideal.div a (max (((k : ℝ) : EReal)) 1) := by
  have hm : max (((k : ℝ) : EReal)) 1 = (((max (k : ℝ) 1 : ℝ)) : EReal) := by
    rw [← EReal.coe_one]; exact (EReal.coe_strictMono.monotone.map_max).symm
  have hne : max (k : ℝ) 1 ≠ 0 := (lt_of_lt_of_le one_pos (le_max_right _ _)).ne'
  rw [hm, Ideal.div_coe hne, Ideal.div_coe hne, one_mul]

end Cert.Lib

end
-- ==== Proof.LibHostSpread.lean ====
/-
  The host's spreading operation read at an index, for the small layouts a per-row statistic and a per-column bias go
  through: a scalar spread over a whole array reads the scalar everywhere; an [a, 1] column spread over [a, b] reads, at
  (p, c), the column's entry of row p; a [1, b] row spread over [a, b] reads the row's entry of column c; a vector [a]
  spread along dimension 0 of [a, 1] reads, at (i, ·), the vector at i — and is the same array as the vector recast to
  that column.
-/
import Idealize.ShloMosaic.Lib.Pipeline.Value
import Idealize.ShloMosaic.Lib.ValueIdx
import Idealize.ShloMosaic.Lib.ValueLayout

noncomputable section

namespace Cert.Lib

open Idealize.ShloMosaic Idealize.ShloMosaic.ValueIdx

variable {α : Type}

/-- A scalar spread over an array of any shape reads the scalar at every index. -/
theorem splat_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- An `[a, 1]` column spread over `[a, b]` (both axes kept) reads, at `(p, c)`, the column's entry of row `p`. -/
theorem spread_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row spread over `[a, b]` (both axes kept) reads, at `(p, c)`, the row's entry of column `c`. -/
theorem spread_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` spread along dimension 0 of `[a, 1]` reads, at `(i, u)`, the vector at `i`. -/
theorem spread_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A vector recast as a column is the vector spread along dimension 0 of the column's shape. -/
theorem shapeCast_col_eq_spread {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [spread_a_a1_apply x h' i u]
  refine shapeCast_apply x h _ _ ?_
  have hu : u.val = 0 := by omega
  rw [Shape.rowMajor_val_two, Shape.rowMajor_val_one]
  show i.val = i.val * 1 + u.val
  rw [hu, Nat.mul_one, Nat.add_zero]

end Cert.Lib

end
-- ==== Proof.Norms.lean ====
/-
  The two weights the graph contributes are real numbers, whatever the edge list holds.

  The degree of a node is the number of edges whose destination index is that node, plus one for the
  self-loop: a natural number plus one, so a real number that is at least one. Its inverse square root is
  therefore the real number 1 / sqrt(degree). The per-edge weight reads this array of inverse square roots
  twice through a gather; a gather clamps its start index into the array, so whatever the index holds the
  value read is one of the array's entries, a real number; and a product of two reals is a real. The
  per-node weight is the product of an entry with itself.
-/
import proofs.«179693_j27702539059471_2_alg».proof.Proof.KSpec
import proofs.«179693_j27702539059471_2_alg».proof.Proof.LibSegmentCount
import proofs.«179693_j27702539059471_2_alg».proof.Proof.LibIndexedRows
import proofs.«179693_j27702539059471_2_alg».proof.Proof.LibHostSpread
import Idealize.ShloMosaic.Lib.IdealHost

noncomputable section

namespace Cert.KernelIdeal.Norms

open Cert.KernelIdeal Cert.KernelIdeal.Gen Idealize.ShloMosaic Idealize.ShloMosaic.ValueIdx

/-- An entrywise sum read at an index. -/
theorem addf_apply {s : Shape} {φ : FTy} (x y : FVec Ideal s φ) (i : s.Idx) : addf x y i = x i + y i := rfl

/-- An entrywise product read at an index. -/
theorem mulf_apply {s : Shape} {φ : FTy} (x y : FVec Ideal s φ) (i : s.Idx) : mulf x y i = x i * y i := rfl

/-- The entrywise inverse square root read at an index. -/
theorem rsqrt_apply {s : Shape} {φ : FTy} (x : FVec Ideal s φ) (i : s.Idx) : Host.rsqrt x i = Ideal.rsqrt (x i) := rfl

/-- Over the extended reals the accumulating scatter is the exact sum of the colliding updates. -/
theorem scatterAdd_eq {s si u : Shape} {φ : FTy} {w : Nat} (d : ScatterDims s si u) (x : FVec Ideal s φ) (idx : IVec si w)
    (upd : FVec Ideal u φ) : Host.scatterAdd d x idx upd = Ideal.hostScatterAdd d x idx upd := rfl

/-- The degree of node n is the number of edges arriving at n, plus one. -/
theorem deg_apply (x1 : (⟨S2x1600000, .i32⟩ : BufTy).Contents (Elt Ideal)) (n : Fin 100000) :
    KSpec.deg (F := Ideal) x1 (ix1 n)
      = ((((Cert.Lib.landCount (N := 100000) (KSpec.col (F := Ideal) (KSpec.dstRow (F := Ideal) x1)) n : ℕ) : ℝ) + 1 : ℝ) : EReal) := by
  have hz : (broadcastInDim S100000 ![] bcast_S_S100000 (constant (F := Ideal) S_ .f32 0x00000000#32))
      = fun _ => (0 : EReal) := by
    funext j; exact Ideal.ofBits_zero_f32
  have ho : (broadcastInDim S1600000 ![] bcast_S_S1600000 (constant (F := Ideal) S_ .f32 0x3F800000#32))
      = fun _ => (1 : EReal) := by
    funext j; exact Ideal.ofBits_one_f32
  have h1 : (broadcastInDim S100000 ![] bcast_S_S100000 (constant (F := Ideal) S_ .f32 0x3F800000#32)) (ix1 n)
      = (1 : EReal) := Ideal.ofBits_one_f32
  rw [KSpec.deg, addf_apply, scatterAdd_eq, hz, ho, h1,
    Cert.Lib.scatter_ones_flat _ rfl rfl rfl rfl, EReal.coe_add, EReal.coe_one]

/-- Every entry of the inverse square root of the degree is a real number. -/
theorem dis_real (x1 : (⟨S2x1600000, .i32⟩ : BufTy).Contents (Elt Ideal)) (i : S100000.Idx) :
    ∃ r : ℝ, KSpec.dis (F := Ideal) x1 i = (r : EReal) := by
  obtain ⟨n, rfl⟩ : ∃ n : Fin 100000, i = ix1 n := ⟨i 0, eq_ix1 i⟩
  refine ⟨(Real.sqrt (((Cert.Lib.landCount (N := 100000) (KSpec.col (F := Ideal) (KSpec.dstRow (F := Ideal) x1)) n : ℕ) : ℝ) + 1))⁻¹, ?_⟩
  have hpos : (0 : ℝ) < ((Cert.Lib.landCount (N := 100000) (KSpec.col (F := Ideal) (KSpec.dstRow (F := Ideal) x1)) n : ℕ) : ℝ) + 1 := by
    positivity
  rw [KSpec.dis, rsqrt_apply, deg_apply, Ideal.rsqrt_coe, if_neg (not_lt.2 hpos.le), if_neg hpos.ne']

/-- Whatever the edge list holds, every per-edge weight is a real number: a degree is a count plus one, a real
    number that is at least one, so its inverse square root is real, and so is a product of two of them. -/
theorem enorm_real (x1 : (⟨S2x1600000, .i32⟩ : BufTy).Contents (Elt Ideal)) :
    Cert.Spec.RealValued (KSpec.enorm (F := Ideal) x1 : S1600000x1.Idx → EReal) := by
  intro j
  obtain ⟨e, u, rfl⟩ : ∃ (e : Fin 1600000) (u : Fin 1), j = ix2 e u := ⟨j 0, j 1, eq_ix2 j⟩
  rw [KSpec.enorm, Cert.Lib.spread_a_a1_apply, mulf_apply,
    Cert.Lib.flatGather_apply (by norm_num) _ rfl rfl rfl rfl rfl rfl,
    Cert.Lib.flatGather_apply (by norm_num) _ rfl rfl rfl rfl rfl rfl]
  obtain ⟨a, ha⟩ := dis_real x1 (ix1 (Cert.Lib.clampRow 100000 (by norm_num)
    (KSpec.col (F := Ideal) (KSpec.wrapIdx (F := Ideal) (KSpec.srcRow (F := Ideal) x1)) (ix2 e 0))))
  obtain ⟨b, hb⟩ := dis_real x1 (ix1 (Cert.Lib.clampRow 100000 (by norm_num)
    (KSpec.col (F := Ideal) (KSpec.wrapIdx (F := Ideal) (KSpec.dstRow (F := Ideal) x1)) (ix2 e 0))))
  exact ⟨a * b, by rw [ha, hb, EReal.coe_mul]⟩

/-- … and so is every per-node self-loop weight. -/
theorem snorm_real (x1 : (⟨S2x1600000, .i32⟩ : BufTy).Contents (Elt Ideal)) :
    Cert.Spec.RealValued (KSpec.snorm (F := Ideal) x1 : S100000x1.Idx → EReal) := by
  intro j
  obtain ⟨n, u, rfl⟩ : ∃ (n : Fin 100000) (u : Fin 1), j = ix2 n u := ⟨j 0, j 1, eq_ix2 j⟩
  rw [KSpec.snorm, Cert.Lib.spread_a_a1_apply, mulf_apply]
  obtain ⟨a, ha⟩ := dis_real x1 (ix1 n)
  exact ⟨a * a, by rw [ha, EReal.coe_mul]⟩

end Cert.KernelIdeal.Norms

end
-- ==== Proof.LayerBridge.lean ====
/-
  One layer of the kernel program equals one layer of the reference, on real-valued data.

  Entry (p, q) of the kernel's layer is  max( (sum over k of (agg h (p,k) + h(p,k) * sn(p)) * W(k,q)) + b(q), 0 ):
  it aggregates the rows of h over the edges arriving at p and transforms the aggregated row. Entry (p, q) of the
  reference's layer is  max( ((agg (h·W)) (p,q) + (h·W)(p,q) * sn(p)) + b(q), 0 ): it transforms every row and
  aggregates the transformed rows. With the aggregate read as a sum over the arriving edges (Edges.agg_apply) the
  two are the two sides of the aggregate-then-transform law (agg_transform), which needs every entry of h, W, the edge weights and the
  self-loop weights to be a real number; the common value is then real too, so the next layer may use the law again.
-/
import proofs.«179693_j27702539059471_2_alg».proof.Proof.Edges
import proofs.«179693_j27702539059471_2_alg».proof.Proof.RSpec
import proofs.«179693_j27702539059471_2_alg».proof.Proof.LibAggregateTransform
import proofs.«179693_j27702539059471_2_alg».proof.Proof.Norms

noncomputable section

namespace Cert.LayerBridge

open Idealize.ShloMosaic Idealize.ShloMosaic.ValueIdx Cert.KernelIdeal Cert.KernelIdeal.Edges Cert.Spec

/-- The contraction's left index at entry (n, q), term k, is (n, k). -/
theorem lidx_eq (n : Fin 100000) (q k : Fin 128) : Cert.ReferenceIdeal.Read.lidx_main_v29 (ix2 n q) k = ix2 n k :=
  funext fun a => match a with
    | ⟨0, _⟩ => rfl
    | ⟨1, _⟩ => rfl

/-- … and its right index is (k, q). -/
theorem ridx_eq (n : Fin 100000) (q k : Fin 128) : Cert.ReferenceIdeal.Read.ridx_main_v29 (ix2 n q) k = ix2 k q :=
  funext fun a => match a with
    | ⟨0, _⟩ => rfl
    | ⟨1, _⟩ => rfl

/-- Entry (n, q) of the plain product h · W. -/
theorem dense_apply (h : S100000x128.Idx → EReal) (W : S128x128.Idx → EReal) (n : Fin 100000) (q : Fin 128) :
    Cert.ReferenceIdeal.RSpec.dense (F := Ideal) h W (ix2 n q) = ∑ k : Fin 128, h (ix2 n k) * W (ix2 k q) := by
  show Cert.ReferenceIdeal.Read.val_main_v29 (F := Ideal) h W (ix2 n q) = _
  rw [Cert.ReferenceIdeal.Read.val_main_v29_apply]
  exact Finset.sum_congr rfl fun k _ => by rw [lidx_eq, ridx_eq]

theorem idx42_eq (p : Fin 100000) (q : Fin 128) : Cert.ReferenceIdeal.Read.idx_main_v42 (ix2 p q) = ix2 p 0 :=
  funext fun a => match a with
    | ⟨0, _⟩ => rfl
    | ⟨1, _⟩ => rfl

theorem idx4546_eq (p : Fin 100000) (q : Fin 128) :
    Cert.ReferenceIdeal.Read.idx_main_v45 (Cert.ReferenceIdeal.Read.idx_main_v46 (ix2 p q)) = ix1 q :=
  funext fun a => match a with
    | ⟨0, _⟩ => rfl

/-- Entry (p, q) of the reference's layer, with the aggregate and the products written as sums. -/
theorem ref_layer_apply (h : S100000x128.Idx → EReal) (x1 : EdgeList) (W : S128x128.Idx → EReal) (b : S128.Idx → EReal)
    (p : Fin 100000) (q : Fin 128) :
    Cert.ReferenceIdeal.RSpec.layer (F := Ideal) h x1 W b (ix2 p q)
      = max (((0 + ∑ e ∈ arriving x1 p, (∑ k : Fin 128, h (ix2 (source x1 e) k) * W (ix2 k q)) * KSpec.enorm (F := Ideal) x1 (ix2 e 0))
          + (∑ k : Fin 128, h (ix2 p k) * W (ix2 k q)) * KSpec.snorm (F := Ideal) x1 (ix2 p 0)) + b (ix1 q)) 0 := by
  rw [← Cert.ReferenceIdeal.RSpec.layer1_eq, Cert.ReferenceIdeal.Read.val_main_v48_apply, Cert.ReferenceIdeal.Read.val_main_v47_apply,
    Cert.ReferenceIdeal.Read.val_main_v44_apply, Cert.ReferenceIdeal.Read.val_main_v43_apply, Cert.ReferenceIdeal.Read.val_main_v42_apply,
    Cert.ReferenceIdeal.Read.val_main_v46_apply, Cert.ReferenceIdeal.Read.val_main_v45_apply,
    Cert.ReferenceIdeal.Read.val_main_call0_v0_apply, Cert.ReferenceIdeal.Read.val_main_call0_cst_apply, idx42_eq, idx4546_eq]
  show max (((KSpec.agg (F := Ideal) (Cert.ReferenceIdeal.RSpec.dense (F := Ideal) h W) x1 (ix2 p q)
      + Cert.ReferenceIdeal.RSpec.dense (F := Ideal) h W (ix2 p q) * KSpec.snorm (F := Ideal) x1 (ix2 p 0)) + b (ix1 q)))
      (Ideal.ofBits .f32 0x00000000#32) = _
  rw [Edges.agg_apply, dense_apply, Ideal.ofBits_zero_f32]
  simp only [dense_apply]

/-- The law, entry by entry: the kernel's layer is the reference's layer, and its entries are real numbers. -/
theorem layer_eq (h : S100000x128.Idx → EReal) (x1 : EdgeList) (W : S128x128.Idx → EReal) (b : S128.Idx → EReal)
    (hh : RealValued h) (hW : RealValued W) (hb : RealValued b) :
    KSpec.layer h x1 W b = Cert.ReferenceIdeal.RSpec.layer (F := Ideal) h x1 W b ∧ RealValued (KSpec.layer h x1 W b) := by
  have key : ∀ (p : Fin 100000) (q : Fin 128),
      KSpec.layer h x1 W b (ix2 p q) = Cert.ReferenceIdeal.RSpec.layer (F := Ideal) h x1 W b (ix2 p q)
      ∧ ∃ r : ℝ, KSpec.layer h x1 W b (ix2 p q) = (r : EReal) := by
    intro p q
    obtain ⟨law, v, hv⟩ := Cert.Lib.agg_transform (arriving x1 p) (fun e k => h (ix2 (source x1 e) k))
      (fun e => KSpec.enorm (F := Ideal) x1 (ix2 e 0)) (fun k => h (ix2 p k)) (KSpec.snorm (F := Ideal) x1 (ix2 p 0))
      (fun k => W (ix2 k q)) (fun e k => hh _) (fun e => Cert.KernelIdeal.Norms.enorm_real x1 _) (fun k => hh _)
      (Cert.KernelIdeal.Norms.snorm_real x1 _) (fun k => hW _)
    have hk : KSpec.layer h x1 W b (ix2 p q)
        = max ((∑ k : Fin 128, ((0 + ∑ e ∈ arriving x1 p, h (ix2 (source x1 e) k) * KSpec.enorm (F := Ideal) x1 (ix2 e 0))
            + h (ix2 p k) * KSpec.snorm (F := Ideal) x1 (ix2 p 0)) * W (ix2 k q)) + b (ix1 q)) 0 := by
      unfold KSpec.layer
      rw [Cert.Spec.layerK_ix2]
      unfold Cert.Spec.layerAt
      simp only [Edges.agg_apply]
    refine ⟨?_, ?_⟩
    · rw [hk, ref_layer_apply]
      exact congrArg (fun z => max (z + b (ix1 q)) 0) law
    · obtain ⟨bq, hbq⟩ := hb (ix1 q)
      refine ⟨max (v + bq) 0, ?_⟩
      rw [hk, hv, hbq, ← EReal.coe_add, Cert.Lib.max_zero_coe]
  refine ⟨funext fun i => ?_, fun i => ?_⟩
  · rw [eq_ix2 i]; exact (key _ _).1
  · rw [eq_ix2 i]; exact (key _ _).2

end Cert.LayerBridge

end
-- ==== Proof.PoolBridge.lean ====
/-
  The read-out of the kernel program equals the read-out of the reference, with no condition on the data.

  Both divide each per-graph feature sum by the per-graph count clipped below at one, multiply the row of means
  by the read-out column and add the one bias entry; the kernel's stage is Spec.poolK of the sums and counts, the
  reference's is the same arithmetic spelt with whole-array operations. Entry by entry the two are one expression.

  The reference's term is read at entry (g, 0) one operation at a time, with the sums and the counts kept as two
  unopened arrays: the sum of two arrays is the sum of their entries; the product of a 512 x 128 array with a
  128 x 1 column is the sum over k of entry (g, k) times entry (k, 0); a quotient of arrays is the quotient of
  entries; the column of clipped counts spread along the rows is read at (g, 0); the clip is the larger of the
  count and the constant whose bit pattern is that of the number one; the bias spread over a 512 x 1 array is its
  single entry.
-/
import proofs.«179693_j27702539059471_2_alg».proof.Proof.KSpec
import proofs.«179693_j27702539059471_2_alg».proof.Proof.RSpec
import Idealize.ShloMosaic.Lib.IdealHost

noncomputable section

namespace Cert.PoolBridge

open Idealize.ShloMosaic Idealize.ShloMosaic.ValueIdx Cert.KernelIdeal

section Reads

open Cert.ReferenceIdeal Cert.ReferenceIdeal.Read

/-- An entrywise sum read at an index. -/
theorem addf_apply {s : Shape} {φ : FTy} (x y : FVec Ideal s φ) (i : s.Idx) : addf x y i = x i + y i := rfl

/-- An entrywise quotient read at an index. -/
theorem divf_apply {s : Shape} {φ : FTy} (x y : FVec Ideal s φ) (i : s.Idx) : Host.divf x y i = Ideal.div (x i) (y i) := rfl

/-- An entrywise larger-of-two read at an index. -/
theorem maxf_apply {s : Shape} {φ : FTy} (x y : FVec Ideal s φ) (i : s.Idx) : maximumf x y i = max (x i) (y i) := rfl

/-- The constant array whose bit pattern is that of the number one, read anywhere, is one. -/
theorem one_apply (j : Cert.ReferenceIdeal.S512x1.Idx) :
    (broadcastInDim Cert.ReferenceIdeal.S512x1 ![] Cert.ReferenceIdeal.Gen.bcast_S_S512x1
      (constant (F := Ideal) Cert.ReferenceIdeal.S_ .f32 0x3F800000#32)) j = (1 : EReal) := Ideal.ofBits_one_f32

/-- A 512 x 128 array times a 128 x 1 column, read at an entry: the sum over the shared axis. -/
theorem dot_apply (y : FVec Ideal Cert.ReferenceIdeal.S512x128 .f32) (w : FVec Ideal Cert.ReferenceIdeal.S128x1 .f32)
    (i : Cert.ReferenceIdeal.S512x1.Idx) :
    Host.dotGeneral Cert.ReferenceIdeal.dot_S512x128_S128x1_S512x1_1_0_0_1_n_n none y w i
      = ∑ k : Fin 128, y (lidx_main_v100 i k) * w (ridx_main_v100 i k) := by
  simp only [Host.dotGeneral]
  rw [Ideal.dotGeneral_apply, ← Equiv.sum_comp (ValueIdx.contrEquiv1 Cert.ReferenceIdeal.dot_S512x128_S128x1_S512x1_1_0_0_1_n_n 128 rfl rfl).symm]
  refine Finset.sum_congr rfl fun k _ => ?_
  have hk := ValueIdx.contrEquiv1_symm_val Cert.ReferenceIdeal.dot_S512x128_S128x1_S512x1_1_0_0_1_n_n 128 rfl rfl k
  have el : Cert.ReferenceIdeal.dot_S512x128_S128x1_S512x1_1_0_0_1_n_n.lhsIdx i ((ValueIdx.contrEquiv1 Cert.ReferenceIdeal.dot_S512x128_S128x1_S512x1_1_0_0_1_n_n 128 rfl rfl).symm k)
      = lidx_main_v100 i k := funext fun a => Fin.ext (by
    match a with
    | ⟨0, _⟩ => exact lhs_main_v100_0 _ _
    | ⟨1, _⟩ => exact (lhs_main_v100_1 _ _).trans hk)
  have er : Cert.ReferenceIdeal.dot_S512x128_S128x1_S512x1_1_0_0_1_n_n.rhsIdx i ((ValueIdx.contrEquiv1 Cert.ReferenceIdeal.dot_S512x128_S128x1_S512x1_1_0_0_1_n_n 128 rfl rfl).symm k)
      = ridx_main_v100 i k := funext fun a => Fin.ext (by
    match a with
    | ⟨0, _⟩ => exact (rhs_main_v100_0 _ _).trans hk
    | ⟨1, _⟩ => exact rhs_main_v100_1 _ _)
  rw [el, er]

/-- A column spread along the rows of a 512 x 128 array, read at an entry: the column's entry in that row. -/
theorem spread_col (y : FVec Ideal Cert.ReferenceIdeal.S512x1 .f32) (i : Cert.ReferenceIdeal.S512x128.Idx) :
    broadcastInDim Cert.ReferenceIdeal.S512x128 ![0, 1] Cert.ReferenceIdeal.Gen.bcast_S512x1_S512x128_0_1 y i = y (idx_main_v98 i) :=
  broadcastInDim_apply _ Cert.ReferenceIdeal.Gen.bcast_S512x1_S512x128_0_1 y i (idx_main_v98 i) (fun a => match a with
    | ⟨0, _⟩ => by show (i 0).val = if (512 : Nat) = 1 then 0 else (i 0).val; rw [if_neg (by decide)]
    | ⟨1, _⟩ => by show 0 = if (1 : Nat) = 1 then 0 else (i 1).val; rw [if_pos rfl])

/-- The one bias entry spread over a 512 x 1 array, read at an entry. -/
theorem bias_apply (b : FVec Ideal Cert.ReferenceIdeal.S1 .f32) (i : Cert.ReferenceIdeal.S512x1.Idx) :
    broadcastInDim Cert.ReferenceIdeal.S512x1 ![0, 1] Cert.ReferenceIdeal.Gen.bcast_S1x1_S512x1_0_1
      (broadcastInDim Cert.ReferenceIdeal.S1x1 ![1] Cert.ReferenceIdeal.Gen.bcast_S1_S1x1_1 b) i = b (ix1 0) := by
  show val_main_v102 (F := Ideal) b i = _
  rw [val_main_v102_apply, val_main_v101_apply]
  exact congrArg b (funext fun a => match a with | ⟨0, _⟩ => rfl)

/-! The index arithmetic at entry (g, 0) -/

theorem lidx_eq (g : Fin 512) (k : Fin 128) : lidx_main_v100 (ix2 g (0 : Fin 1)) k = ix2 g k :=
  funext fun a => match a with | ⟨0, _⟩ => rfl | ⟨1, _⟩ => rfl

theorem ridx_eq (g : Fin 512) (k : Fin 128) : ridx_main_v100 (ix2 g (0 : Fin 1)) k = ix2 k (0 : Fin 1) :=
  funext fun a => match a with | ⟨0, _⟩ => rfl | ⟨1, _⟩ => rfl

theorem row_eq (g : Fin 512) (k : Fin 128) : idx_main_v98 (ix2 g k) = ix2 g (0 : Fin 1) :=
  funext fun a => match a with | ⟨0, _⟩ => rfl | ⟨1, _⟩ => rfl

/-- The reference's read-out term over any sums and counts, read at entry (g, 0). -/
theorem pool_read (S : FVec Ideal Cert.ReferenceIdeal.S512x128 .f32) (C : FVec Ideal Cert.ReferenceIdeal.S512x1 .f32)
    (x9 : FVec Ideal Cert.ReferenceIdeal.S128x1 .f32) (x10 : FVec Ideal Cert.ReferenceIdeal.S1 .f32) (g : Fin 512) :
    addf
      (Host.dotGeneral Cert.ReferenceIdeal.dot_S512x128_S128x1_S512x1_1_0_0_1_n_n none
        (Host.divf S
          (broadcastInDim Cert.ReferenceIdeal.S512x128 ![0, 1] Cert.ReferenceIdeal.Gen.bcast_S512x1_S512x128_0_1
            (maximumf C
              (broadcastInDim Cert.ReferenceIdeal.S512x1 ![] Cert.ReferenceIdeal.Gen.bcast_S_S512x1
                (constant (F := Ideal) Cert.ReferenceIdeal.S_ .f32 0x3F800000#32)))))
        x9)
      (broadcastInDim Cert.ReferenceIdeal.S512x1 ![0, 1] Cert.ReferenceIdeal.Gen.bcast_S1x1_S512x1_0_1
        (broadcastInDim Cert.ReferenceIdeal.S1x1 ![1] Cert.ReferenceIdeal.Gen.bcast_S1_S1x1_1 x10))
      (ix2 g (0 : Fin 1))
      = Cert.Spec.poolAt S C x9 x10 g := by
  rw [addf_apply, dot_apply, bias_apply]
  unfold Cert.Spec.poolAt
  refine congrArg (· + x10 (ix1 0)) (Finset.sum_congr rfl fun k _ => ?_)
  rw [lidx_eq, ridx_eq, divf_apply, spread_col, row_eq, maxf_apply, one_apply]

end Reads

theorem pool_eq (h : S100000x128.Idx → EReal) (x2 : (⟨S100000, .i32⟩ : BufTy).Contents (Elt Ideal))
    (x9 : S128x1.Idx → EReal) (x10 : S1.Idx → EReal) :
    Cert.Spec.poolK (KSpec.sums (F := Ideal) h x2) (KSpec.counts (F := Ideal) x2) x9 x10
      = Cert.ReferenceIdeal.RSpec.pool (F := Ideal) h x2 x9 x10 := by
  unfold Cert.ReferenceIdeal.RSpec.pool
  generalize KSpec.sums (F := Ideal) h x2 = S
  generalize KSpec.counts (F := Ideal) x2 = C
  funext i
  obtain ⟨g, r, rfl⟩ : ∃ (g : Fin 512) (r : Fin 1), i = ix2 g r := ⟨i 0, i 1, eq_ix2 i⟩
  obtain rfl : r = 0 := Subsingleton.elim _ _
  rw [Cert.Spec.poolK_ix2]
  exact (pool_read S C x9 x10 g).symm

end Cert.PoolBridge

end
-- ==== Proof.Bridge.lean ====
/-
  The kernel program's result equals the reference's result when the floating-point arguments are real-valued.

  Layer by layer: the first layer's input is the argument x0, real-valued; each layer's output is real-valued and
  equal on the two sides (LayerBridge.layer_eq), so the next layer meets the same conditions; the read-outs agree
  on any data (PoolBridge.pool_eq).
-/
import proofs.«179693_j27702539059471_2_alg».proof.Proof.LayerBridge
import proofs.«179693_j27702539059471_2_alg».proof.Proof.PoolBridge

noncomputable section

namespace Cert.Bridge

open Idealize.ShloMosaic Cert.KernelIdeal Cert.Spec

theorem out_eq (x0 : S100000x128.Idx → EReal) (x1 : (⟨S2x1600000, .i32⟩ : BufTy).Contents (Elt Ideal))
    (x2 : (⟨S100000, .i32⟩ : BufTy).Contents (Elt Ideal)) (x3 : S128x128.Idx → EReal) (x4 : S128.Idx → EReal)
    (x5 : S128x128.Idx → EReal) (x6 : S128.Idx → EReal) (x7 : S128x128.Idx → EReal) (x8 : S128.Idx → EReal)
    (x9 : S128x1.Idx → EReal) (x10 : S1.Idx → EReal)
    (h0 : RealValued x0) (h3 : RealValued x3) (h4 : RealValued x4) (h5 : RealValued x5) (h6 : RealValued x6)
    (h7 : RealValued x7) (h8 : RealValued x8) :
    KSpec.out x0 x1 x2 x3 x4 x5 x6 x7 x8 x9 x10
      = Cert.ReferenceIdeal.RSpec.out (F := Ideal) x0 x1 x2 x3 x4 x5 x6 x7 x8 x9 x10 := by
  obtain ⟨e1, r1⟩ := Cert.LayerBridge.layer_eq x0 x1 x3 x4 h0 h3 h4
  obtain ⟨e2, r2⟩ := Cert.LayerBridge.layer_eq (KSpec.layer x0 x1 x3 x4) x1 x5 x6 r1 h5 h6
  obtain ⟨e3, _⟩ := Cert.LayerBridge.layer_eq (KSpec.layer (KSpec.layer x0 x1 x3 x4) x1 x5 x6) x1 x7 x8 r2 h7 h8
  unfold KSpec.out Cert.ReferenceIdeal.RSpec.out
  rw [Cert.PoolBridge.pool_eq, e3, e2, e1]

end Cert.Bridge

end
-- ==== Proof.Finite.lean ====
/-
  Under the precondition every entry of every floating-point argument is a real number.

  The precondition is a conjunction of nine tests, one per floating-point argument array x: the conjunction, over
  all entries, of |x| < +infinity, where |x| is max(x, -x). A conjunction that holds has every conjunct holding, so
  each entry satisfies max(x, -x) < +infinity over the extended reals. Neither infinity does: at +infinity the
  maximum is +infinity itself, at -infinity the negation is +infinity. So the entry is a real number.
-/
import proofs.«179693_j27702539059471_2_alg».proof.Defs
import proofs.«179693_j27702539059471_2_alg».proof.Proof.Gen.Pre_finite_inputs
import proofs.«179693_j27702539059471_2_alg».proof.Proof.Spec
import Idealize.ShloMosaic.Lib.ReduceAll

noncomputable section

namespace Cert.Finite

open Cert.KernelIdeal Idealize.ShloMosaic Idealize.ShloMosaic.TcCoe Idealize.SL.Sem

/-- The shape of a scalar has exactly one index. -/
instance : Subsingleton (⟨0, ![]⟩ : Shape).Idx := ⟨fun a b => funext fun d => d.elim0⟩

/-- The bit pattern the test compares against denotes +infinity. -/
theorem ofBits_inf : Ideal.ofBits .f32 0x7F800000#32 = (⊤ : EReal) := by
  simp [Ideal.ofBits, Ideal.ieee]

/-- An extended real whose absolute value max(x, -x) is below +infinity is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One test of the precondition, for an array of any shape: if the conjunction over all entries of
    |x| < +infinity holds, every entry of x is a real number. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf (F := Ideal) .olt (Host.absf x) (broadcastInDim s ![] hb (constant (⟨0, ![]⟩ : Shape) .f32 0x7F800000#32)))
        (constantI (⟨0, ![]⟩ : Shape) 1 1#1) hr hu ValueIdx.ix0 = 1#1) :
    Cert.Spec.RealValued (x : s.Idx → EReal) := by
  intro i
  have hi := Host.reduce_andi_all _ _ hr hu ValueIdx.ix0 e i
  have hi' : Ideal.cmp .olt (max (x i) (-(x i))) (Ideal.ofBits .f32 0x7F800000#32) = 1#1 := hi
  rw [ofBits_inf] at hi'
  refine real_of_abs_lt_top (x i) ?_
  by_contra hn
  have : Ideal.cmp .olt (max (x i) (-(x i))) ⊤ = 0#1 := by
    unfold Ideal.cmp
    simp [hn]
  rw [this] at hi'
  exact absurd hi' (by decide)

/-- Under the precondition every entry of every floating-point argument array is a real number. -/
theorem real_of_pre (m : (ℓ : Loc nD τ sig) → Buf (Elt Ideal) ℓ) (h : Cert.Pre_KernelIdeal m) (c : Dev nD) :
    Cert.Spec.RealValued (m ((c.tc : Thread nD τ).loc main_arg0) : S100000x128.Idx → EReal)
    ∧ Cert.Spec.RealValued (m ((c.tc : Thread nD τ).loc main_arg3) : S128x128.Idx → EReal)
    ∧ Cert.Spec.RealValued (m ((c.tc : Thread nD τ).loc main_arg4) : S128.Idx → EReal)
    ∧ Cert.Spec.RealValued (m ((c.tc : Thread nD τ).loc main_arg5) : S128x128.Idx → EReal)
    ∧ Cert.Spec.RealValued (m ((c.tc : Thread nD τ).loc main_arg6) : S128.Idx → EReal)
    ∧ Cert.Spec.RealValued (m ((c.tc : Thread nD τ).loc main_arg7) : S128x128.Idx → EReal)
    ∧ Cert.Spec.RealValued (m ((c.tc : Thread nD τ).loc main_arg8) : S128.Idx → EReal)
    ∧ Cert.Spec.RealValued (m ((c.tc : Thread nD τ).loc main_arg9) : S128x1.Idx → EReal)
    ∧ Cert.Spec.RealValued (m ((c.tc : Thread nD τ).loc main_arg10) : S1.Idx → EReal) := by
  have h0 := congrFun (h c) ValueIdx.ix0
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨e0, e3⟩, e4⟩, e5⟩, e6⟩, e7⟩, e8⟩, e9⟩, e10⟩ := h0
  exact ⟨real_of_all _ _ _ _ e0, real_of_all _ _ _ _ e3, real_of_all _ _ _ _ e4, real_of_all _ _ _ _ e5,
    real_of_all _ _ _ _ e6, real_of_all _ _ _ _ e7, real_of_all _ _ _ _ e8, real_of_all _ _ _ _ e9,
    real_of_all _ _ _ _ e10⟩

end Cert.Finite

end
-- ==== Proof.lean ====
/-
  The five parts of the claim, joined.

  Three of them say that a program runs to the end without a fault and leaves its argument arrays as they were:
  for the kernel program at the bit-exact values and at the extended reals this is the generated frame
  certificate; for the reference it is its generated run, of which only the arguments' part is kept. The fourth
  says the idealization rewrote no operation, and holds trivially. The fifth says that over the extended reals,
  from memories that agree on the eleven arguments and satisfy the precondition, the two programs end with equal
  results. Its parts: the kernel program's run ends with its result at one function KSpec.out of the arguments
  (KRun); the reference's run ends at its own composed term, which is the function RSpec.out of the arguments
  (RSpec); the precondition makes every entry of the floating-point arguments a real number (Finite); and on
  real-valued arguments the two functions agree (Bridge).
-/
import proofs.«179693_j27702539059471_2_alg».proof.Defs
import proofs.«179693_j27702539059471_2_alg».proof.Proof.Gen.Kernel
import proofs.«179693_j27702539059471_2_alg».proof.Proof.Gen.Kernel.Skeleton
import proofs.«179693_j27702539059471_2_alg».proof.Proof.Gen.Kernel.Launch
import proofs.«179693_j27702539059471_2_alg».proof.Proof.Gen.Kernel.Points
import proofs.«179693_j27702539059471_2_alg».proof.Proof.Gen.Kernel.Frame
import proofs.«179693_j27702539059471_2_alg».proof.Proof.Gen.KernelIdeal
import proofs.«179693_j27702539059471_2_alg».proof.Proof.Gen.KernelIdeal.Skeleton
import proofs.«179693_j27702539059471_2_alg».proof.Proof.Gen.KernelIdeal.Launch
import proofs.«179693_j27702539059471_2_alg».proof.Proof.Gen.KernelIdeal.Points
import proofs.«179693_j27702539059471_2_alg».proof.Proof.Gen.KernelIdeal.Frame
import proofs.«179693_j27702539059471_2_alg».proof.Proof.Gen.ReferenceIdeal
import proofs.«179693_j27702539059471_2_alg».proof.Proof.Gen.Pre_finite_inputs
import proofs.«179693_j27702539059471_2_alg».proof.Proof.Gen.ReferenceIdeal.Run
import proofs.«179693_j27702539059471_2_alg».proof.Proof.Gen.ReferenceIdeal.Read
import proofs.«179693_j27702539059471_2_alg».proof.Proof.KRun
import proofs.«179693_j27702539059471_2_alg».proof.Proof.Bridge
import proofs.«179693_j27702539059471_2_alg».proof.Proof.Finite
import proofs.«179693_j27702539059471_2_alg».proof.Proof.RSpec
import Idealize.ShloMosaic.Adequacy
import Idealize.ShloMosaic.Init

noncomputable section

namespace Cert.Proof

open Idealize.ShloMosaic Idealize.ShloMosaic.TcCoe Idealize.SL.Sem

/-- The kernel program at the bit-exact values runs to the end and leaves its arguments unchanged. -/
theorem frame_k : Cert.frame_Kernel := fun m ρ _ => Cert.Kernel.Gen.frame m ρ

/-- The kernel program over the extended reals runs to the end and leaves its arguments unchanged. -/
theorem frame_ki : Cert.frame_KernelIdeal := fun m ρ _ => Cert.KernelIdeal.Gen.frame m ρ

/-- The reference over the extended reals runs to the end and leaves its arguments unchanged: its run, with
    the statement about the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals, from memories that agree on the arguments and satisfy the precondition, the kernel
    program and the reference end with equal results: the kernel's is KSpec.out of the arguments, the reference's
    is RSpec.out of the same arguments, and the two agree because the floating-point arguments are real-valued. -/
theorem algebraic : Cert.algebraic_KernelIdeal_ReferenceIdeal := by
  intro m ρ m' ρ' hpre hagree
  refine ⟨_, Cert.KernelIdeal.KRun.run_value m ρ, ?_⟩
  refine (θ_run Cert.ReferenceIdeal.defs _ _).mono (fun _ h c => ⟨(h c).1.trans ?_, (h c).2⟩)
    (Cert.ReferenceIdeal.Value.run (F := Ideal) m' ρ')
  have hr := Cert.Finite.real_of_pre m hpre c
  obtain ⟨a0, a1, a2, a3, a4, a5, a6, a7, a8, a9, a10⟩ := hagree c
  rw [Cert.ReferenceIdeal.Read.val_main_v103_eq, Cert.ReferenceIdeal.RSpec.out_eq,
    a0, a1, a2, a3, a4, a5, a6, a7, a8, a9, a10]
  exact (Cert.Bridge.out_eq _ _ _ _ _ _ _ _ _ _ _ hr.1 hr.2.1 hr.2.2.1 hr.2.2.2.1 hr.2.2.2.2.1 hr.2.2.2.2.2.1
    hr.2.2.2.2.2.2.1).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
